-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16384 : Shape := ⟨2, ![1024, 16384]⟩
abbrev S4096x16384 : Shape := ⟨2, ![4096, 16384]⟩
abbrev S4096 : Shape := ⟨1, ![4096]⟩
abbrev S1024x4096 : Shape := ⟨2, ![1024, 4096]⟩
abbrev S1024 : Shape := ⟨1, ![1024]⟩
abbrev S256x1024 : Shape := ⟨2, ![256, 1024]⟩
abbrev S256 : Shape := ⟨1, ![256]⟩
abbrev S_ : Shape := ⟨0, ![]⟩

class Facts : Prop where
  bcast_S_S1024x16384 : S_.BroadcastsInDim S1024x16384 (![] : Fin 0 → Fin S1024x16384.rank)
  reducesTo_S1024x16384_S_d0_1 : S1024x16384.ReducesTo [0, 1] S_
  h_S_ : 0 < S_.numel
  bcast_S_S4096x16384 : S_.BroadcastsInDim S4096x16384 (![] : Fin 0 → Fin S4096x16384.rank)
  reducesTo_S4096x16384_S_d0_1 : S4096x16384.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S1024 .f32) (main_arg5 : FVec F S256x1024 .f32) (main_arg6 : FVec F S256 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S1024x16384 .f32) (main_arg1 : FVec F S4096x16384 .f32) (main_arg2 : FVec F S4096 .f32) (main_arg3 : FVec F S1024x4096 .f32) (main_arg4 : FVec F S1024 .f32) (main_arg5 : FVec F S256x1024 .f32) (main_arg6 : FVec F S256 .f32) : IVec S_ 1 :=
  let main_v0 : FVec F S1024x16384 .f32 := Host.absf main_arg0
  let main_cst : FVec F S_ .f32 := constant S_ .f32 0x7F800000#32
  let main_v1 : FVec F S1024x16384 .f32 := broadcastInDim S1024x16384 ![] bcast_S_S1024x16384 main_cst
  let main_v2 : IVec S1024x16384 1 := cmpf .olt main_v0 main_v1
  let main_c : IVec S_ 1 := constantI S_ 1 1#1
  let main_v3 : IVec S_ 1 := (fun x v => Host.reduce IntOp.andi x v reducesTo_S1024x16384_S_d0_1 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_v13 main_v16
-- ==== Kernel.lean ====
abbrev S1024x16384 : Shape := ⟨2, ![1024, 16384]⟩
abbrev S4096x16384 : Shape := ⟨2, ![4096, 16384]⟩
abbrev S4096 : Shape := ⟨1, ![4096]⟩
abbrev S1024x4096 : Shape := ⟨2, ![1024, 4096]⟩
abbrev S1024 : Shape := ⟨1, ![1024]⟩
abbrev S256x1024 : Shape := ⟨2, ![256, 1024]⟩
abbrev S256 : Shape := ⟨1, ![256]⟩
abbrev S1024x2048 : Shape := ⟨2, ![1024, 2048]⟩
abbrev S512x2048 : Shape := ⟨2, ![512, 2048]⟩
abbrev S1024x512 : Shape := ⟨2, ![1024, 512]⟩
abbrev S1x4096 : Shape := ⟨2, ![1, 4096]⟩
abbrev S1x1024 : Shape := ⟨2, ![1, 1024]⟩
abbrev S1x256 : Shape := ⟨2, ![1, 256]⟩
abbrev S1024x256 : Shape := ⟨2, ![1024, 256]⟩
abbrev S256x4096 : Shape := ⟨2, ![256, 4096]⟩
abbrev S256x256 : Shape := ⟨2, ![256, 256]⟩

abbrev nBuf : Space → Nat
  | .hbm => 14
  | .vmem => 14
  | .smem => 0
  | _ => 0

abbrev bufTy : (tb : Table) → Fin (tcTables nBuf tb) → BufTy
  | .hbm, ⟨0, _⟩ => ⟨S1024x16384, .f32⟩
  | .hbm, ⟨1, _⟩ => ⟨S4096x16384, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S256x1024, .f32⟩
  | .hbm, ⟨6, _⟩ => ⟨S256, .f32⟩
  | .hbm, ⟨7, _⟩ => ⟨S1024x4096, .f32⟩
  | .hbm, ⟨8, _⟩ => ⟨S1024x4096, .bf16⟩
  | .hbm, ⟨9, _⟩ => ⟨S256x1024, .bf16⟩
  | .hbm, ⟨10, _⟩ => ⟨S1x4096, .f32⟩
  | .hbm, ⟨11, _⟩ => ⟨S1x1024, .f32⟩
  | .hbm, ⟨12, _⟩ => ⟨S1x256, .f32⟩
  | .hbm, ⟨13, _⟩ => ⟨S1024x256, .f32⟩
  | .local _ .vmem, ⟨0, _⟩ => ⟨S1024x2048, .f32⟩
  | .local _ .vmem, ⟨1, _⟩ => ⟨S1024x2048, .f32⟩
  | .local _ .vmem, ⟨2, _⟩ => ⟨S512x2048, .f32⟩
  | .local _ .vmem, ⟨3, _⟩ => ⟨S512x2048, .f32⟩
  | .local _ .vmem, ⟨4, _⟩ => ⟨S1024x4096, .f32⟩
  | .local _ .vmem, ⟨5, _⟩ => ⟨S256x4096, .f32⟩
  | .local _ .vmem, ⟨6, _⟩ => ⟨S256x4096, .f32⟩
  | .local _ .vmem, ⟨7, _⟩ => ⟨S1024x4096, .bf16⟩
  | .local _ .vmem, ⟨8, _⟩ => ⟨S256x1024, .bf16⟩
  | .local _ .vmem, ⟨9, _⟩ => ⟨S1x4096, .f32⟩
  | .local _ .vmem, ⟨10, _⟩ => ⟨S1x1024, .f32⟩
  | .local _ .vmem, ⟨11, _⟩ => ⟨S1x256, .f32⟩
  | .local _ .vmem, ⟨12, _⟩ => ⟨S256x256, .f32⟩
  | .local _ .vmem, ⟨13, _⟩ => ⟨S256x256, .f32⟩
  | _, _ => ⟨S1024x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨2, ![8, 8], ![false, false]⟩

def k0_off1 (i : grid0.Coords) : Fin 2 → Nat :=
  let c0_3 : Index := 0#32
  let arg1 : BitVec 32 := BitVec.ofNat 32 (i 1).val
  let c512_i32 : BitVec 32 := 512#32
  let v5 : BitVec 32 := Scalar.muli arg1 c512_i32
  let c0_i32 : BitVec 32 := 0#32
  let v6 : BitVec 32 := Scalar.addi v5 c0_i32
  let v7 : Index := Scalar.indexCast v6
  ![0, v7.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  h_S1024x512 : 0 < S1024x512.numel
  shapeCasts_S1024x512_S1024x512 : S1024x512.ShapeCasts S1024x512
  shapeCasts_S4096_S1x4096 : S4096.ShapeCasts S1x4096
  shapeCasts_S1024_S1x1024 : S1024.ShapeCasts S1x1024
  shapeCasts_S256_S1x256 : S256.ShapeCasts S1x256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S1024x2048_S512x2048_S1024x512_1_1_0_0_n_n_wf : DotDims.WF S1024x2048 S512x2048 S1024x512 [1] [1] [0] [0] [] []
  dot_S256x4096_S1024x4096_S256x1024_1_1_0_0_n_n_wf : DotDims.WF S256x4096 S1024x4096 S256x1024 [1] [1] [0] [0] [] []
  dot_S256x1024_S256x1024_S256x256_1_1_0_0_n_n_wf : DotDims.WF S256x1024 S256x1024 S256x256 [1] [1] [0] [0] [] []
  hrank0 : 0 < grid0.rank
  k0_off1_inb : ∀ i : grid0.Coords, ∀ a, (k0_off1 i) a + S1024x512.size a ≤ S1024x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x16384.size a
  hwx0_0 : ∀ i : grid0.Coords, EltTy.bits .f32 = 32 ∨ (Rect.block (s := S1024x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x16384.size a
  hwx0_1 : ∀ i : grid0.Coords, EltTy.bits .f32 = 32 ∨ (Rect.block (s := S4096x16384) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .f32 = 32 ∨ (Rect.block (s := S1024x4096) S1024x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S1024x4096.size a
  hwx1_0 : ∀ i : grid1.Coords, EltTy.bits .f32 = 32 ∨ (Rect.block (s := S1024x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S1024x4096.size a
  hwx1_1 : ∀ i : grid1.Coords, EltTy.bits .bf16 = 32 ∨ (Rect.block (s := S1024x4096) S1024x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S256x1024.size a
  hwx1_2 : ∀ i : grid1.Coords, EltTy.bits .bf16 = 32 ∨ (Rect.block (s := S256x1024) S256x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S1024x256.size a
  hwx1_6 : ∀ i : grid1.Coords, EltTy.bits .f32 = 32 ∨ (Rect.block (s := S1024x256) S256x256.size (cc1_transform_6 i) (hinb1_6 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf
def dot_S256x1024_S256x1024_S256x256_1_1_0_0_n_n : DotDims S256x1024 S256x1024 S256x256 where
  lhsContracting := [1]
  rhsContracting := [1]
  lhsNonContracting := [0]
  rhsNonContracting := [0]
  lhsBatch := []
  rhsBatch := []
  wf := dot_S256x1024_S256x1024_S256x256_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x4096.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S256x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1024x16384 : Shape := ⟨2, ![1024, 16384]⟩
abbrev S4096x16384 : Shape := ⟨2, ![4096, 16384]⟩
abbrev S4096 : Shape := ⟨1, ![4096]⟩
abbrev S1024x4096 : Shape := ⟨2, ![1024, 4096]⟩
abbrev S1024 : Shape := ⟨1, ![1024]⟩
abbrev S256x1024 : Shape := ⟨2, ![256, 1024]⟩
abbrev S256 : Shape := ⟨1, ![256]⟩
abbrev S16384x4096 : Shape := ⟨2, ![16384, 4096]⟩
abbrev S1x4096 : Shape := ⟨2, ![1, 4096]⟩
abbrev S_ : Shape := ⟨0, ![]⟩
abbrev S4096x1024 : Shape := ⟨2, ![4096, 1024]⟩
abbrev S1024x1024 : Shape := ⟨2, ![1024, 1024]⟩
abbrev S1x1024 : Shape := ⟨2, ![1, 1024]⟩
abbrev S1024x256 : Shape := ⟨2, ![1024, 256]⟩
abbrev S1x256 : Shape := ⟨2, ![1, 256]⟩

abbrev nBuf : Space → Nat
  | .hbm => 28
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S4096x16384, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S256x1024, .f32⟩
  | .hbm, ⟨6, _⟩ => ⟨S256, .f32⟩
  | .hbm, ⟨7, _⟩ => ⟨S16384x4096, .f32⟩
  | .hbm, ⟨8, _⟩ => ⟨S1024x4096, .f32⟩
  | .hbm, ⟨9, _⟩ => ⟨S1x4096, .f32⟩
  | .hbm, ⟨10, _⟩ => ⟨S1024x4096, .f32⟩
  | .hbm, ⟨11, _⟩ => ⟨S1024x4096, .f32⟩
  | .hbm, ⟨12, _⟩ => ⟨S_, .f32⟩
  | .hbm, ⟨13, _⟩ => ⟨S1024x4096, .f32⟩
  | .hbm, ⟨14, _⟩ => ⟨S1024x4096, .f32⟩
  | .hbm, ⟨15, _⟩ => ⟨S4096x1024, .f32⟩
  | .hbm, ⟨16, _⟩ => ⟨S1024x1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1024x256, .f32⟩
  | .hbm, ⟨24, _⟩ => ⟨S1024x256, .f32⟩
  | .hbm, ⟨25, _⟩ => ⟨S1x256, .f32⟩
  | .hbm, ⟨26, _⟩ => ⟨S1024x256, .f32⟩
  | .hbm, ⟨27, _⟩ => ⟨S1024x256, .f32⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  transposes_S4096x16384_S16384x4096_1_0 : S4096x16384.Transposes [1, 0] S16384x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  bcast_S_S1024x4096 : S_.BroadcastsInDim S1024x4096 (![] : Fin 0 → Fin S1024x4096.rank)
  transposes_S1024x4096_S4096x1024_1_0 : S1024x4096.Transposes [1, 0] S4096x1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  transposes_S256x1024_S1024x256_1_0 : S256x1024.Transposes [1, 0] S1024x256
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  dot_S1024x16384_S16384x4096_S1024x4096_1_0_0_1_n_n_wf : DotDims.WF S1024x16384 S16384x4096 S1024x4096 [1] [0] [0] [1] [] []
  dot_S1024x4096_S4096x1024_S1024x1024_1_0_0_1_n_n_wf : DotDims.WF S1024x4096 S4096x1024 S1024x1024 [1] [0] [0] [1] [] []
  dot_S1024x1024_S1024x256_S1024x256_1_0_0_1_n_n_wf : DotDims.WF S1024x1024 S1024x256 S1024x256 [1] [0] [0] [1] [] []

variable [Facts₀]

def dot_S1024x16384_S16384x4096_S1024x4096_1_0_0_1_n_n : DotDims S1024x16384 S16384x4096 S1024x4096 where
  lhsContracting := [1]
  rhsContracting := [0]
  lhsNonContracting := [0]
  rhsNonContracting := [1]
  lhsBatch := []
  rhsBatch := []
  wf := dot_S1024x16384_S16384x4096_S1024x4096_1_0_0_1_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

class Facts : Prop extends Facts₀ where

variable [Facts]
-- ==== Proof.BitsRegion0.lean ====
import proofs.«109090_g35089882808761_cont_8to1_b_317_18_alg».proof.Proof.Gen.Kernel.Launch
import proofs.«109090_g35089882808761_cont_8to1_b_317_18_alg».proof.Proof.Gen.Kernel.Skeleton
import proofs.«109090_g35089882808761_cont_8to1_b_317_18_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

/-! # The first call: layer 0 accumulated over eight contraction blocks

Grid point `(k, n)` multiplies the block of `x` with columns `2048 k …` by the block of `W0` with rows `512 n …` and
the same columns, and puts the product into columns `512 n …` of the one resident output block: at `k = 0` the product
itself, later the sum of what those columns held and the product. The output block is handed back by the pipeline only
after the last point. What the buffer holds off the columns a point stores is what it held before, so the buffer's
contents after a point are a function of its contents before it (`step0`), and the proof data relates the two. -/

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The columns a point stores: all rows, 512 columns from the point's offset. -/
abbrev r0 (i : grid0.Coords) : Rect S1024x4096 := Rect.unit (s := S1024x4096) (k0_off1 i) S1024x512.size (k0_off1_inb i)

/-- The output buffer after the body at coordinates `i`, from the two input blocks and the buffer before: the payload on
    the stored columns, the old contents elsewhere. -/
def step0 (i : grid0.Coords) (x0 : Vec F S1024x2048 .f32) (x1 : Vec F S512x2048 .f32) (Y : Vec F S1024x4096 .f32) :
    Vec F S1024x4096 .f32 := fun y =>
  if h : ∀ a, k0_off1 i a ≤ (y a).val ∧ (y a).val < k0_off1 i a + S1024x512.size a then
    k0_pay1 i x0 x1 (View.ld Y (r0 i)) (Rect.unitLocal (s := S1024x4096) (off := k0_off1 i) (size := S1024x512.size) y h)
  else Y y

theorem zero_offsets : (![0, 0] : Fin 2 → Nat) = fun _ => 0 := by
  funext a; fin_cases a <;> rfl

/-- One store of the payload through the point's columns, over a whole buffer holding `Y`, reads back as `step0`. -/
theorem read_step0 (arg4 : Memref sig .tc .vmem S1024x4096 .f32) (harg4 : arg4.IsWhole) (i : grid0.Coords)
    (x0 : Vec F S1024x2048 .f32) (x1 : Vec F S512x2048 .f32) (Y : Vec F S1024x4096 .f32) :
    arg4.view.read (Elt F) (arg4.view.writes (Elt F) (harg4.unread Y)
        [⟨r0 i, k0_pay1 i x0 x1 (View.ld Y (r0 i))⟩]) = step0 i x0 x1 Y := by
  funext y
  rw [View.read_writes_cons_unit arg4.view _ (k0_off1_inb i) _ [] y rfl]
  unfold step0
  simp only [View.writes_nil, harg4.read_unread]

set_option maxHeartbeats 1000000 in
/-- The body on whole staging memrefs holding `x0`, `x1` and `y` leaves the inputs as they were and the output buffer at
    `step0`. -/
theorem sound_kernel0 (c : Dev nD) (E : Set ℕ) (i : grid0.Coords)
    (arg2 : Memref sig .tc .vmem S1024x2048 .f32) (harg2 : arg2.IsWhole)
    (arg3 : Memref sig .tc .vmem S512x2048 .f32) (harg3 : arg3.IsWhole)
    (arg4 : Memref sig .tc .vmem S1024x4096 .f32) (harg4 : arg4.IsWhole)
    (x0 : Vec F S1024x2048 .f32) (x1 : Vec F S512x2048 .f32) (y : Vec F S1024x4096 .f32) (K : PUnit → sProp 𝕄) :
    iprop(owns (c : Thread nD τ) arg2 fullShare x0 ∗ owns (c : Thread nD τ) arg3 fullShare x1 ∗ owns (c : Thread nD τ) arg4 fullShare y
        ∗ (iprop(owns (c : Thread nD τ) arg2 fullShare x0 ∗ owns (c : Thread nD τ) arg3 fullShare x1
            ∗ owns (c : Thread nD τ) arg4 fullShare (step0 i x0 x1 y)) -∗ K ⟨⟩))
      ⊢ wp frame (wpE (defs₀ (F := F)) Variants.none c none) E (cc0__layer0_kernel i arg2 harg2 arg3 harg3 arg4 harg4) K := by
  simp only [cc0__layer0_kernel_eq_skeleton]; unfold cc0__layer0_kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  have e0 : View.readAt (Elt F) arg2.view (Rect.unit (s := S1024x2048) ![0, 0] S1024x2048.size inb_S1024x2048_S1024x2048_0_0).toLoadRect
      (harg2.unread x0) = x0 := by
    rw [View.readAt_eq_ld, harg2.read_unread, View.ld_unit_zero zero_offsets]
  have e1 : View.readAt (Elt F) arg3.view (Rect.unit (s := S512x2048) ![0, 0] S512x2048.size inb_S512x2048_S512x2048_0_0).toLoadRect
      (harg3.unread x1) = x1 := by
    rw [View.readAt_eq_ld, harg3.read_unread, View.ld_unit_zero zero_offsets]
  have e2 : View.readAt (Elt F) arg4.view (r0 i).toLoadRect (harg4.unread y) = View.ld y (r0 i) := by
    rw [View.readAt_eq_ld, harg4.read_unread]
  rw [e0, e1, e2]
  exact read_step0 arg4 harg4 i x0 x1 y

/-! ## The proof data -/

/-- The first call's proof data on core `c`: the arrays as the call finds them; an input's buffer is left as found; the
    output's buffer after a point is `step0` of the point's input blocks and the buffer before; the scoped rest and the
    generator register pass through; nothing owed; full shares. -/
def rd0 (c : Dev nD) : RDat τ (Elt F) Unit ℕ (UR sig nD τ) ℕ cfg0 c where
  A w := V c (Pipeline.arrRef spec0 w)
  after w t := match w with
    | ⟨0, _⟩ => fun Y X => X = Y
    | ⟨1, _⟩ => fun Y X => X = Y
    | ⟨2, _⟩ => fun Y X => X = step0 (grid0.coords t) (iblk0 V c 0 t) (iblk0 V c 1 t) Y
  Φ _ := Pipeline.ΦA spec0 c
  q _ := fullShare
  owed _ := 0

theorem after0_0 (c : Dev nD) (t : Fin cfg0.N) (Y X) : (rd0 V c).after 0 t Y X ↔ X = Y := by dsimp only [rd0]; exact Iff.rfl
theorem after0_1 (c : Dev nD) (t : Fin cfg0.N) (Y X) : (rd0 V c).after 1 t Y X ↔ X = Y := by dsimp only [rd0]; exact Iff.rfl
theorem after0_2 (c : Dev nD) (t : Fin cfg0.N) (Y X) :
    (rd0 V c).after 2 t Y X ↔ X = step0 (grid0.coords t) (iblk0 V c 0 t) (iblk0 V c 1 t) Y := by dsimp only [rd0]; exact Iff.rfl

/-- An input's current staging buffer holds its block at every point, fetched there or not. -/
theorem finds0_0 (c : Dev nD) (t : Fin cfg0.N) (Y) (h : (rd0 V c).Finds 0 t Y) : Y = iblk0 V c 0 t := by
  obtain ⟨d, hd⟩ := (rd0 V c).finds_in_eq_fetched 0 rfl (fun _ _ _ => rfl) (fun t Y X h => (after0_0 V c t Y X).mp h) t Y h
  rw [hd]; unfold RDat.fetched RDat.blockOf iblk0; rfl
theorem finds0_1 (c : Dev nD) (t : Fin cfg0.N) (Y) (h : (rd0 V c).Finds 1 t Y) : Y = iblk0 V c 1 t := by
  obtain ⟨d, hd⟩ := (rd0 V c).finds_in_eq_fetched 1 rfl (fun _ _ _ => rfl) (fun t Y X h => (after0_1 V c t Y X).mp h) t Y h
  rw [hd]; unfold RDat.fetched RDat.blockOf iblk0; rfl

/-! ## The body obligation -/

theorem sound_body0 (c : Dev nD) (t : Fin cfg0.N) (y2 : Vec F S1024x4096 .f32) :
    iprop((rd0 V c).Φ t.castSucc ∗ (rd0 V c).owesAt () t.castSucc
        ∗ owns (c : Thread nD τ) (st0_0 t) fullShare (iblk0 V c 0 t)
        ∗ owns (c : Thread nD τ) (st0_1 t) fullShare (iblk0 V c 1 t)
        ∗ owns (c : Thread nD τ) (st0_2 t) fullShare y2)
      ⊢ wp frame (wpE (defs₀ (F := F)) Variants.none c none) Set.univ (bodyAt0 t) (fun _ =>
        iprop((rd0 V c).Φ t.succ ∗ (rd0 V c).owesAt () t.succ
          ∗ (∃ X, ⌜(rd0 V c).after 0 t (iblk0 V c 0 t) X⌝ ∗ owns (c : Thread nD τ) (st0_0 t) fullShare X)
          ∗ (∃ X, ⌜(rd0 V c).after 1 t (iblk0 V c 1 t) X⌝ ∗ owns (c : Thread nD τ) (st0_1 t) fullShare X)
          ∗ (∃ X, ⌜(rd0 V c).after 2 t y2 X⌝ ∗ owns (c : Thread nD τ) (st0_2 t) fullShare X))) := by
  unfold bodyAt0
  rw [show (rd0 V c).Φ t.succ = (rd0 V c).Φ t.castSucc from rfl,
    show (rd0 V c).owesAt () t.succ = (rd0 V c).owesAt () t.castSucc from rfl]
  iintro ⟨HΦ, Ho, H0, H1, H2⟩
  iapply (sound_kernel0 c Set.univ (grid0.coords t) _ _ _ _ _ _ (iblk0 V c 0 t) (iblk0 V c 1 t) y2 _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists _; isplitr; · ipureintro; exact (after0_0 V c t _ _).mpr rfl
    iexact H0
  isplitl [H1]
  · iexists _; isplitr; · ipureintro; exact (after0_1 V c t _ _).mpr rfl
    iexact H1
  iexists _; isplitr; · ipureintro; exact (after0_2 V c t _ _).mpr rfl
  iexact H2

/-- The body obligation of the relational proof data, at every point. -/
theorem body_obligation0 (c : Dev nD) : (rd0 (F := F) V c).BodyObligation (defs₀ (F := F)) Variants.none () Set.univ := fun t Y hY => by
  rw [bigSep_W0, bigSep_W0]
  have h0 := finds0_0 V c t (Y 0) (hY 0)
  have h1 := finds0_1 V c t (Y 1) (hY 1)
  rw [h0, h1]
  exact sound_body0 V c t (Y 2)

end Cert.Kernel.Hand

end
-- ==== Proof.BitsAccumDefs.lean ====
import proofs.«109090_g35089882808761_cont_8to1_b_317_18_alg».proof.Proof.BitsRegion0
import Idealize.ShloMosaic.Lib.ValueIdx

set_option maxRecDepth 16384

noncomputable section

namespace Cert.Kernel.Hand

open Idealize.ShloMosaic Idealize.ShloMosaic.TcCoe
open Idealize.SL Idealize.SL.Sem
open Idealize.ShloMosaic.Pipeline (RDat)
open Cert.Kernel Cert.Kernel.Gen

variable {F : FTy → Type} [FloatOps F]

/-! # The first call's result, column block by column block

Column block `n` (columns `512 n … 512 n + 511`) of the resident output is stored at the grid points `8 j + n`,
`j = 0 … 7`: at `j = 0` the product of the point's blocks, at `j + 1` the sum of what it held and the point's product.
So after point `t` column block `n ≤ t` holds its accumulation through contraction block `(t - n) / 8`, and after the last
point every column block holds its accumulation through block 7. -/

variable (V : (c : Dev nD) → (b : Ref sig .tc) → Buf (Elt F) ((c : Thread nD τ).loc b))

/-- The grid point of contraction block `j` and column block `n`. -/
def pt0 (j : ℕ) (n : Fin 8) (hj : j < 8) : Fin cfg0.N := ⟨8 * j + n.val, by rw [show cfg0.N = 64 from N_0]; omega⟩

/-- Column block `n` after contraction blocks `0 … j`: the payload of the point's two input blocks, over the block's
    earlier contents (which the payload ignores at `j = 0`). -/
def colAcc (c : Dev nD) (n : Fin 8) : ℕ → Vec F S1024x512 .f32
  | 0 => k0_pay1 (grid0.coords (pt0 0 n (by omega))) (iblk0 V c 0 (pt0 0 n (by omega))) (iblk0 V c 1 (pt0 0 n (by omega)))
      (constant S1024x512 .f32 0x00000000#32)
  | j + 1 =>
    if h : j + 1 < 8 then
      k0_pay1 (grid0.coords (pt0 (j + 1) n h)) (iblk0 V c 0 (pt0 (j + 1) n h)) (iblk0 V c 1 (pt0 (j + 1) n h)) (colAcc c n j)
    else colAcc c n j

/-- The column block an index of the result lies in, and its position inside the block. -/
def colOf (y : S1024x4096.Idx) : Fin 8 := ⟨(y 1).val / 512, by have h : (y 1).val < 4096 := (y 1).isLt; omega⟩
def loc0 (y : S1024x4096.Idx) : S1024x512.Idx :=
  ValueIdx.ix2 (⟨(y 0).val, (y 0).isLt⟩ : Fin 1024) (⟨(y 1).val % 512, Nat.mod_lt _ (by decide)⟩ : Fin 512)

/-- The first call's result: every column block accumulated through the last contraction block. -/
def H0 (c : Dev nD) : Vec F S1024x4096 .f32 := fun y => colAcc V c (colOf y) 7 (loc0 y)

/-- What the output buffer holds after point `t`: column block `n ≤ t` accumulated through contraction block `(t - n) / 8`
    (nothing is said of a column block not yet stored). -/
def Inv0 (c : Dev nD) (t : ℕ) (X : Vec F S1024x4096 .f32) : Prop :=
  ∀ y : S1024x4096.Idx, (colOf y).val ≤ t → X y = colAcc V c (colOf y) ((t - (colOf y).val) / 8) (loc0 y)

end Cert.Kernel.Hand

end
-- ==== Proof.BitsAccum.lean ====
import proofs.«109090_g35089882808761_cont_8to1_b_317_18_alg».proof.Proof.BitsAccumDefs

/-!
  The first call's running accumulation, point by point.

  The grid's point number t has contraction block t / 8 and column block t % 8. A point stores on the 512 columns of
  its column block and nowhere else, so an index of the output lies on the stored columns exactly when its column
  block is the point's. On those columns the point stores the product of its two input blocks at contraction block 0
  (whatever the columns held), and otherwise that product added to what the columns held, which by the invariant is
  the accumulation through the previous contraction block. Off those columns the contents and the accumulation count
  are unchanged. After the last point every column block is accumulated through contraction block 7.
-/

set_option maxRecDepth 16384

noncomputable section

namespace Cert.Kernel.Hand

open Idealize.ShloMosaic Idealize.ShloMosaic.TcCoe
open Idealize.SL Idealize.SL.Sem
open Idealize.ShloMosaic.Pipeline (RDat)
open Cert.Kernel Cert.Kernel.Gen

variable {F : FTy → Type} [FloatOps F]

variable (V : (c : Dev nD) → (b : Ref sig .tc) → Buf (Elt F) ((c : Thread nD τ).loc b))

/-! ## The stored value at contraction block 0 ignores the old contents -/

/-- At contraction block 0 the stored value does not depend on what the columns held. -/
theorem pay_first (i : grid0.Coords) (hi : (i 0).val = 0) (v0 : Vec F S1024x2048 .f32) (v2 : Vec F S512x2048 .f32)
    (v8 v8' : Vec F S1024x512 .f32) : k0_pay1 i v0 v2 v8 = k0_pay1 i v0 v2 v8' := by
  have hc : Scalar.cmpi .eq (BitVec.ofNat 32 (i 0).val) 0#32 = 1#1 := by rw [hi]; rfl
  unfold k0_pay1
  simp only [hc, ValueIdx.select_one]

/-! ## The grid's coordinates and the stored columns -/

/-- Point t has contraction block t / 8 and column block t % 8. -/
theorem coords0 : ∀ t : Fin grid0.N, ((grid0.coords t) 0).val = t.val / 8 ∧ ((grid0.coords t) 1).val = t.val % 8 := by
  decide +kernel

/-- An index lies on the columns a point stores exactly when its column block is the point's. -/
theorem mem_cols (i : grid0.Coords) (y : S1024x4096.Idx) :
    (∀ a, k0_off1 i a ≤ (y a).val ∧ (y a).val < k0_off1 i a + S1024x512.size a) ↔ (colOf y).val = (i 1).val := by
  rw [k0_off1_eq]
  have h0 : (y 0).val < 1024 := (y 0).isLt
  have h1 : (y 1).val < 4096 := (y 1).isLt
  have hi : (i 1).val < 8 := (i 1).isLt
  constructor
  · intro h
    have h' := h 1
    change 512 * (i 1).val ≤ (y 1).val ∧ (y 1).val < 512 * (i 1).val + 512 at h'
    show (y 1).val / 512 = (i 1).val
    omega
  · intro h a
    change (y 1).val / 512 = (i 1).val at h
    match a with
    | ⟨0, _⟩ => show 0 ≤ (y 0).val ∧ (y 0).val < 0 + 1024; omega
    | ⟨1, _⟩ => show 512 * (i 1).val ≤ (y 1).val ∧ (y 1).val < 512 * (i 1).val + 512; omega

/-- On the stored columns, the index's position inside them is its position inside its column block. -/
theorem unitLocal_eq_loc0 (i : grid0.Coords) (y : S1024x4096.Idx)
    (h : ∀ a, k0_off1 i a ≤ (y a).val ∧ (y a).val < k0_off1 i a + S1024x512.size a) :
    Rect.unitLocal (s := S1024x4096) (off := k0_off1 i) (size := S1024x512.size) y h = loc0 y := by
  have e := k0_off1_eq i
  funext a
  apply Fin.ext
  rw [Rect.unitLocal_val]
  have ha := h a
  rw [e] at ha ⊢
  match a with
  | ⟨0, _⟩ =>
    show (y 0).val - 0 = (y 0).val
    omega
  | ⟨1, _⟩ =>
    change 512 * (i 1).val ≤ (y 1).val ∧ (y 1).val < 512 * (i 1).val + 512 at ha
    show (y 1).val - 512 * (i 1).val = (y 1).val % 512
    omega

/-- The index of the output at position z of the columns a point stores lies in the point's column block … -/
theorem colOf_idx (i : grid0.Coords) (z : S1024x512.Idx) : (colOf ((r0 i).idx z)).val = (i 1).val := by
  have hz : (z 1).val < 512 := (z 1).isLt
  have e : (((r0 i).idx z) 1).val = k0_off1 i 1 + 1 * (z 1).val := rfl
  show (((r0 i).idx z) 1).val / 512 = (i 1).val
  rw [e, k0_off1_eq]
  show (512 * (i 1).val + 1 * (z 1).val) / 512 = (i 1).val
  omega

/-- … at position z inside it. -/
theorem loc0_idx (i : grid0.Coords) (z : S1024x512.Idx) : loc0 ((r0 i).idx z) = z := by
  have hz : (z 1).val < 512 := (z 1).isLt
  have e0 : (((r0 i).idx z) 0).val = k0_off1 i 0 + 1 * (z 0).val := rfl
  have e1 : (((r0 i).idx z) 1).val = k0_off1 i 1 + 1 * (z 1).val := rfl
  funext a
  apply Fin.ext
  match a with
  | ⟨0, _⟩ =>
    show (((r0 i).idx z) 0).val = (z 0).val
    rw [e0, k0_off1_eq]
    show 0 + 1 * (z 0).val = (z 0).val
    omega
  | ⟨1, _⟩ =>
    show (((r0 i).idx z) 1).val % 512 = (z 1).val
    rw [e1, k0_off1_eq]
    show (512 * (i 1).val + 1 * (z 1).val) % 512 = (z 1).val
    omega

/-! ## A point's stored value is the next accumulation -/

/-- The point of contraction block 0 and column block n stores the accumulation through block 0. -/
theorem pay_at_first (c : Dev nD) (n : Fin 8) (t : Fin cfg0.N) (ht : t.val = n.val) (v8 : Vec F S1024x512 .f32) :
    k0_pay1 (grid0.coords t) (iblk0 V c 0 t) (iblk0 V c 1 t) v8 = colAcc V c n 0 := by
  have hn : n.val < 8 := n.isLt
  obtain rfl : t = pt0 0 n (Nat.succ_pos 7) := Fin.ext (by rw [ht]; show n.val = 8 * 0 + n.val; omega)
  rw [colAcc]
  refine pay_first _ ?_ _ _ _ _
  rw [(coords0 _).1]
  show (8 * 0 + n.val) / 8 = 0
  omega

/-- The point of contraction block j + 1 and column block n, over the accumulation through block j, stores the
    accumulation through block j + 1. -/
theorem pay_at_succ (c : Dev nD) (n : Fin 8) (j : ℕ) (hj : j + 1 < 8) (t : Fin cfg0.N) (ht : t.val = 8 * (j + 1) + n.val) :
    k0_pay1 (grid0.coords t) (iblk0 V c 0 t) (iblk0 V c 1 t) (colAcc V c n j) = colAcc V c n (j + 1) := by
  obtain rfl : t = pt0 (j + 1) n hj := Fin.ext ht
  conv_rhs => rw [colAcc]
  rw [dif_pos hj]

/-! ## The invariant -/

/-- After the first point column block 0 holds its accumulation through contraction block 0. -/
theorem inv_first (c : Dev nD) (h0 : 0 < cfg0.N) (Y : Vec F S1024x4096 .f32) :
    Inv0 V c 0 (step0 (grid0.coords ⟨0, h0⟩) (iblk0 V c 0 ⟨0, h0⟩) (iblk0 V c 1 ⟨0, h0⟩) Y) := by
  intro y hy
  have hn : (colOf y).val = 0 := by omega
  obtain ⟨hc0, hc1⟩ := coords0 ⟨0, h0⟩
  have hmem := (mem_cols (grid0.coords ⟨0, h0⟩) y).mpr (by rw [hn, hc1]; rfl)
  unfold step0
  rw [dif_pos hmem, unitLocal_eq_loc0]
  have e : (0 - (colOf y).val) / 8 = 0 := by omega
  rw [e]
  exact congrFun (pay_at_first V c (colOf y) ⟨0, h0⟩ hn.symm _) (loc0 y)

/-- The invariant passes from one point to the next. -/
theorem inv_step (c : Dev nD) (t : ℕ) (ht : t + 1 < cfg0.N) (X : Vec F S1024x4096 .f32) (h : Inv0 V c t X) :
    Inv0 V c (t + 1) (step0 (grid0.coords ⟨t + 1, ht⟩) (iblk0 V c 0 ⟨t + 1, ht⟩) (iblk0 V c 1 ⟨t + 1, ht⟩) X) := by
  have hN : cfg0.N = 64 := N_0
  have ht64 : t + 1 < 64 := by rw [hN] at ht; exact ht
  obtain ⟨hc0, hc1⟩ := coords0 ⟨t + 1, ht⟩
  change ((grid0.coords ⟨t + 1, ht⟩) 0).val = (t + 1) / 8 at hc0
  change ((grid0.coords ⟨t + 1, ht⟩) 1).val = (t + 1) % 8 at hc1
  intro y hy
  have hn8 : (colOf y).val < 8 := (colOf y).isLt
  unfold step0
  by_cases hm : (colOf y).val = (t + 1) % 8
  · have hmem := (mem_cols (grid0.coords ⟨t + 1, ht⟩) y).mpr (by rw [hc1]; exact hm)
    rw [dif_pos hmem, unitLocal_eq_loc0]
    refine congrFun ?_ (loc0 y)
    rcases Nat.eq_zero_or_pos ((t + 1) / 8) with hz | hp
    · have e : (t + 1 - (colOf y).val) / 8 = 0 := by omega
      rw [e]
      exact pay_at_first V c (colOf y) ⟨t + 1, ht⟩ (by show t + 1 = (colOf y).val; omega) _
    · obtain ⟨j, hj⟩ : ∃ j, (t + 1) / 8 = j + 1 := ⟨(t + 1) / 8 - 1, by omega⟩
      have e : (t + 1 - (colOf y).val) / 8 = j + 1 := by omega
      have hj8 : j + 1 < 8 := by omega
      rw [e]
      have hld : View.ld X (r0 (grid0.coords ⟨t + 1, ht⟩)) = colAcc V c (colOf y) j := by
        funext z
        show X ((r0 (grid0.coords ⟨t + 1, ht⟩)).idx z) = _
        have hz : colOf ((r0 (grid0.coords ⟨t + 1, ht⟩)).idx z) = colOf y :=
          Fin.ext (by rw [colOf_idx, hc1, hm])
        have e' : (t - (colOf y).val) / 8 = j := by omega
        rw [h _ (by rw [hz]; omega), hz, loc0_idx, e']
      rw [hld]
      exact pay_at_succ V c (colOf y) j hj8 ⟨t + 1, ht⟩ (by show t + 1 = 8 * (j + 1) + (colOf y).val; omega)
  · have hnm : ¬ ∀ a, k0_off1 (grid0.coords ⟨t + 1, ht⟩) a ≤ (y a).val
        ∧ (y a).val < k0_off1 (grid0.coords ⟨t + 1, ht⟩) a + S1024x512.size a :=
      fun hmem => hm (((mem_cols _ y).mp hmem).trans hc1)
    rw [dif_neg hnm]
    have hle : (colOf y).val ≤ t := by omega
    have e : (t + 1 - (colOf y).val) / 8 = (t - (colOf y).val) / 8 := by omega
    rw [h y hle, e]

/-- After the last point the buffer holds every column block accumulated through contraction block 7. -/
theorem inv_last (c : Dev nD) (X : Vec F S1024x4096 .f32) (h : Inv0 V c 63 X) : X = H0 V c := by
  funext y
  have hn8 : (colOf y).val < 8 := (colOf y).isLt
  have e : (63 - (colOf y).val) / 8 = 7 := by omega
  rw [h y (by omega), e]
  rfl

end Cert.Kernel.Hand

end
-- ==== Proof.BitsLeaves.lean ====
import proofs.«109090_g35089882808761_cont_8to1_b_317_18_alg».proof.Proof.BitsAccum
import Idealize.ShloMosaic.Lib.Pipeline.Cells

set_option maxRecDepth 16384

noncomputable section

namespace Cert.Kernel.Hand

open Idealize.ShloMosaic Idealize.ShloMosaic.TcCoe
open Idealize.SL Idealize.SL.Sem
open Idealize.ShloMosaic.Pipeline (RDat)
open Cert.Kernel Cert.Kernel.Gen

variable {F : FTy → Type} [FloatOps F]

/-! # What the first call writes back

The output window's one block is written back after the last grid point only, so the array ends holding what the body
left in the buffer at the last point, written through that block; and what the body leaves at a point satisfies the
column-block invariant of the point, by induction over the points (the buffer is handed from point to point without a
fetch or a write-back in between). -/

variable (V : (c : Dev nD) → (b : Ref sig .tc) → Buf (Elt F) ((c : Thread nD τ).loc b))

/-- The output window is never fetched. -/
theorem fetch0_2 : ∀ t : Fin cfg0.N, (cfg0.win 2).fetch t = false :=
  (by decide +kernel : ∀ t : Fin grid0.N, win0_2.fetch t = false)

/-- What the body may leave in the output buffer at point `n` satisfies the invariant of point `n`. -/
theorem leaves_inv (c : Dev nD) : ∀ (n : ℕ) (hn : n < cfg0.N) (X), (rd0 V c).Leaves 2 ⟨n, hn⟩ X → Inv0 V c n X
  | 0, hn, X, ⟨Y, _, hX⟩ => by
    rw [(after0_2 V c ⟨0, hn⟩ Y X).mp hX]; exact inv_first V c hn Y
  | n + 1, hn, X, ⟨Y, hY, hX⟩ => by
    rw [(after0_2 V c ⟨n + 1, hn⟩ Y X).mp hX]
    have hn' : n < cfg0.N := Nat.lt_of_succ_lt hn
    rcases ((rd0 V c).finds_of_pos (fetch0_2 ⟨n + 1, hn⟩) (Nat.succ_ne_zero n) Y).mp hY with hfl | hL
    · exfalso
      have h63 := (flush0_2 _).mp hfl
      have hN : n + 1 < 64 := lt_of_lt_of_eq hn N_0
      dsimp only at h63; omega
    · exact inv_step V c n hn Y (leaves_inv c n hn' Y hL)

/-- Below the last point nothing has been written back: the array is as the call found it. -/
theorem arrAt0_below (c : Dev nD) : ∀ n, n ≤ 63 → (rd0 V c).ArrAt 2 n = fun G => G = (rd0 V c).A 2
  | 0, _ => rfl
  | n + 1, h => by
    have hn : n < cfg0.N := by rw [show cfg0.N = 64 from N_0]; omega
    refine ((rd0 V c).ArrAt_succ 2 ⟨n, hn⟩).trans ?_
    rw [if_neg, arrAt0_below c n (by omega)]
    intro hfl
    have h63 := (flush0_2 ⟨n, hn⟩).mp hfl
    dsimp only at h63; omega

/-- The last grid point. -/
def tlast0 : Fin cfg0.N := ⟨63, by rw [show cfg0.N = 64 from N_0]; omega⟩

/-- The result array when the first call returns: the closed form of the accumulation, written through the window's
    one block over what the array held. -/
def fin0_2 (c : Dev nD) : Buf (Elt F) ((cfg0.win 2).arr.view.loc (c.tc : Thread nD τ)) :=
  ((cfg0.win 2).blk tlast0).view.write (Elt F) ((rd0 V c).A 2) ((cfg0.win 2).cut (cfg0.grid.coords tlast0) (H0 V c)) Finset.univ

theorem arrAt0_2 (c : Dev nD) (G) (h : (rd0 V c).ArrAt 2 cfg0.N G) : G = fin0_2 V c := by
  have e1 : (rd0 V c).ArrAt 2 cfg0.N = (rd0 V c).ArrAt 2 (tlast0.val + 1) :=
    congrArg ((rd0 V c).ArrAt 2) (show cfg0.N = 63 + 1 from N_0)
  rw [e1, (rd0 V c).ArrAt_succ 2 tlast0, if_pos ((flush0_2 tlast0).mpr (by decide)),
    show (rd0 V c).ArrAt 2 (tlast0 : Fin cfg0.N).val = (fun G => G = (rd0 V c).A 2) from arrAt0_below V c 63 le_rfl] at h
  obtain ⟨G₀, X, hG₀, hX, rfl⟩ := h
  rw [hG₀, inv_last V c X (leaves_inv V c 63 tlast0.isLt X hX)]
  rfl

/-- The input arrays are never written. -/
theorem arrAt0_0 (c : Dev nD) (G) (h : (rd0 V c).ArrAt 0 cfg0.N G) : G = (rd0 V c).A 0 := by
  rw [(rd0 V c).ArrAt_in 0 rfl cfg0.N] at h; exact h
theorem arrAt0_1 (c : Dev nD) (G) (h : (rd0 V c).ArrAt 1 cfg0.N G) : G = (rd0 V c).A 1 := by
  rw [(rd0 V c).ArrAt_in 1 rfl cfg0.N] at h; exact h

end Cert.Kernel.Hand

end
-- ==== Proof.BitsRegion1.lean ====
import proofs.«109090_g35089882808761_cont_8to1_b_317_18_alg».proof.Proof.Gen.Kernel.Launch
import proofs.«109090_g35089882808761_cont_8to1_b_317_18_alg».proof.Proof.Gen.Kernel.Skeleton
import proofs.«109090_g35089882808761_cont_8to1_b_317_18_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

/-! # The second call: bias, rectifier and the two small layers, one block of 256 rows per grid point

Each point reads its 256 rows of the first call's result and the whole of the two small weight matrices and the three
bias rows, and stores the block's 256 × 256 results through the whole output block: what the output block holds after
the body is the payload of the six input blocks, whatever it held before. -/

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem zero_offsets1 : (![0, 0] : Fin 2 → Nat) = fun _ => 0 := by
  funext a; fin_cases a <;> rfl

/-- A load of a whole buffer through the whole-shape rectangle reads its contents. -/
theorem readAt_whole {d : Fin 2 → Nat} {e : EltTy} (m : Memref sig .tc .vmem ⟨2, d⟩ e) (hm : m.IsWhole)
    (inb : ∀ a, (![0, 0] : Fin 2 → Nat) a + (⟨2, d⟩ : Shape).size a ≤ (⟨2, d⟩ : Shape).size a) (X : (⟨2, d⟩ : Shape).Idx → Elt F e) :
    View.readAt (Elt F) m.view (Rect.unit (s := ⟨2, d⟩) ![0, 0] (⟨2, d⟩ : Shape).size inb).toLoadRect (hm.unread X) = X := by
  rw [View.readAt_eq_ld, hm.read_unread, View.ld_unit_zero zero_offsets1]

set_option maxHeartbeats 2000000 in
/-- The body on whole staging memrefs, the six inputs' at `x0 … x5` and the output's at anything, leaves the inputs as
    they were and the output block at the payload. -/
theorem sound_kernel1 (c : Dev nD) (E : Set ℕ) (i : grid1.Coords)
    (arg1 : Memref sig .tc .vmem S256x4096 .f32) (harg1 : arg1.IsWhole) (arg2 : Memref sig .tc .vmem S1024x4096 .bf16) (harg2 : arg2.IsWhole)
    (arg3 : Memref sig .tc .vmem S256x1024 .bf16) (harg3 : arg3.IsWhole) (arg4 : Memref sig .tc .vmem S1x4096 .f32) (harg4 : arg4.IsWhole)
    (arg5 : Memref sig .tc .vmem S1x1024 .f32) (harg5 : arg5.IsWhole) (arg6 : Memref sig .tc .vmem S1x256 .f32) (harg6 : arg6.IsWhole)
    (arg7 : Memref sig .tc .vmem S256x256 .f32) (harg7 : arg7.IsWhole)
    (x0 : Vec F S256x4096 .f32) (x1 : Vec F S1024x4096 .bf16) (x2 : Vec F S256x1024 .bf16) (x3 : Vec F S1x4096 .f32)
    (x4 : Vec F S1x1024 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k1_pay1 x0 x3 x1 x4 x2 x5)) -∗ K ⟨⟩))
      ⊢ wp frame (wpE (defs₀ (F := F)) Variants.none c none) E
          (cc1__tail_kernel i arg1 harg1 arg2 harg2 arg3 harg3 arg4 harg4 arg5 harg5 arg6 harg6 arg7 harg7) K := by
  simp only [cc1__tail_kernel_eq_skeleton]; unfold cc1__tail_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact H6
  ipureintro
  rw [readAt_whole arg1 harg1, readAt_whole arg2 harg2, readAt_whole arg3 harg3, readAt_whole arg4 harg4,
    readAt_whole arg5 harg5, readAt_whole arg6 harg6]
  rw [View.read_writes_eq_canon _ _ _ (fun y => ⟨_, List.mem_singleton_self _, View.mem_set_unit_zero zero_offsets1 inb_S256x256_S256x256_0_0 y⟩),
    View.canon_unit_zero zero_offsets1]

/-! ## The proof data -/

/-- The second call's proof data on core `c`: the arrays as the call finds them; after the body each input's buffer at
    its block and the output's at the payload of the six input blocks; the scoped rest and the generator register pass
    through; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay1 (iblk1 V c 0 t) (iblk1 V c 3 t) (iblk1 V c 1 t) (iblk1 V c 4 t) (iblk1 V c 2 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = k1_pay1 (iblk1 V c 0 t) (iblk1 V c 3 t) (iblk1 V c 1 t) (iblk1 V c 4 t) (iblk1 V c 2 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
import proofs.«109090_g35089882808761_cont_8to1_b_317_18_alg».proof.Proof.BitsLeaves
import proofs.«109090_g35089882808761_cont_8to1_b_317_18_alg».proof.Proof.BitsRegion1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

/-! # The run: the first call, five host operations, the second call

The buffers' contents at each boundary are a fold from the launch memory: the first call leaves its two inputs as
found and its result at the closed form of the accumulation; the host operations write five fresh buffers; the second
call leaves its six inputs as found and its result at what its write-backs make of the blocks. Every unscoped buffer
is tracked at these contents from boundary to boundary; at the end the final memory is read against the last of them. -/

variable (m : (ℓ : Loc nD τ sig) → Buf (Elt F) ℓ) (ρ : Dev nD → PrngReg)

/-- Core `c`'s buffers at launch, which is where the first call is entered. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- The first call's arrays when it returns. -/
def fin0 (c : Dev nD) : (w : Fin cfg0.W) → Buf (Elt F) ((cfg0.win w).arr.view.loc (c.tc : Thread nD τ))
  | ⟨0, _⟩ => (rd0 (V0 m ρ) c).A 0
  | ⟨1, _⟩ => (rd0 (V0 m ρ) c).A 1
  | ⟨2, _⟩ => fin0_2 (V0 m ρ) c

theorem arrAt0 (c : Dev nD) (w : Fin cfg0.W) (G) (h : (rd0 (V0 m ρ) c).ArrAt w cfg0.N G) : G = fin0 m ρ c w := by
  match w with
  | ⟨0, _⟩ => exact arrAt0_0 (V0 m ρ) c G h
  | ⟨1, _⟩ => exact arrAt0_1 (V0 m ρ) c G h
  | ⟨2, _⟩ => exact arrAt0_2 (V0 m ρ) c G h

/-- After the first call. -/
def W1 (c : Dev nD) : Valuation τ sig (Elt F) := Pipeline.withArrays spec0 c (W0 m ρ c) fun w => fin0 m ρ c w
theorem W1_arr (c : Dev nD) (w : Fin cfg0.W) : W1 m ρ c (Proc.devRef .tc (Pipeline.arrRef spec0 w)) = fin0 m ρ c w := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : fin0 m ρ c w = V1 m ρ c (Pipeline.arrRef spec0 w) := (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations: where the second call is entered. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After the second call. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### No item writes an argument -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans rfl
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 1).trans rfl
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := W1_of_ne m ρ c main_arg4 (by decide)
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := W1_of_ne m ρ c main_arg5 (by decide)
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := W1_of_ne m ρ c main_arg6 (by decide)
    _ = m ((c : Thread nD τ).loc main_arg6) := rfl

/-! ## The proof data family and the thread state -/

abbrev adm : (p : Fin 2) → (pcfgs (F := F) p).Adm := fun p => (cfgs p).toPCfg_adm

/-- Both calls' proof data: the first call's relational, the second call's exact read relationally. -/
def rdats : (p : Fin 2) → (c : Dev nD) → RDat τ (Elt F) Unit ℕ (UR sig nD τ) ℕ (Pipeline.pin (pcfgs (F := F)) adm p) c
  | ⟨0, _⟩ => fun c => rd0 (V0 m ρ) c
  | ⟨1, _⟩ => fun c => (dat1 (V2 m ρ) c).toR

/-- The first call's arrays and shares as exact proof data (its buffers' contents not named), so that the library's
    lemma putting a call's arrays back among the unscoped buffers applies to both calls. -/
def dd0 (c : Dev nD) : Dat τ (Elt F) Unit ℕ (UR sig nD τ) ℕ cfg0 c where
  A := (rd0 (V0 m ρ) c).A
  after w t := Dat.unnamed w t
  Φ _ := Pipeline.ΦA spec0 c
  q _ := fullShare
  owed _ := 0
def ddats : (p : Fin 2) → (c : Dev nD) → Dat τ (Elt F) Unit ℕ (UR sig nD τ) ℕ (Pipeline.pin (pcfgs (F := F)) adm p) c
  | ⟨0, _⟩ => fun c => dd0 m ρ c
  | ⟨1, _⟩ => fun c => dat1 (V2 m ρ) c

abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-- The first call's arrays at its exit, at some contents the relation allows, are its arrays at the closed forms. -/
theorem exitArrays0 (c : Dev nD) : (rdats m ρ 0 c).arraysAt cfg0.N ⊢ ((ddats m ρ 0 c).arrays (fin0 m ρ c) : sProp 𝕄) := by
  show (rd0 (V0 m ρ) c).arraysAt cfg0.N ⊢ ((dd0 m ρ c).arrays (fin0 m ρ c) : sProp 𝕄)
  have h1 : ∀ w : Fin cfg0.W,
      iprop(∃ G, ⌜(rd0 (V0 m ρ) c).ArrAt w cfg0.N G⌝ ∗ (cfg0.win w).arr.view.loc (c.tc : Thread nD τ) ↦[(cfg0.win w).arr.view.set]{(rd0 (V0 m ρ) c).share w} G)
      ⊢ ((cfg0.win w).arr.view.loc (c.tc : Thread nD τ) ↦[(cfg0.win w).arr.view.set]{(dd0 m ρ c).share w} fin0 m ρ c w : sProp 𝕄) := by
    intro w
    iintro ⟨%G, %hG, H⟩
    rw [arrAt0 m ρ c w G hG]
    iexact H
  unfold RDat.arraysAt Dat.arrays
  exact bigSep_mono fun w _ => h1 w
/-- The second call's, by the exact data's own closed form. -/
theorem exitArrays1 (c : Dev nD) : (rdats m ρ 1 c).arraysAt cfg1.N ⊢ ((ddats m ρ 1 c).arrays ((ddats m ρ 1 c).arrAt · cfg1.N) : sProp 𝕄) := by
  show (dat1 (V2 m ρ) c).toR.arraysAt cfg1.N ⊢ ((dat1 (V2 m ρ) c).arrays ((dat1 (V2 m ρ) c).arrAt · cfg1.N) : sProp 𝕄)
  rw [(dat1 (V2 m ρ) c).toR_arraysAt_eq cfg1.N]

/-! ## The calls as segments -/

set_option backward.isDefEq.respectTransparency.types false in
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := body_obligation0 (V0 m ρ) c
  hwaits := Pipeline.RDat.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.RDat.arrays_of_unscopedBufs (p := 0) (pcfgs (F := F)) adm (rdats m ρ) launch0.win launch0.arr_whole c
      ((rdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (ddats m ρ) ((ddats m ρ 0 c).share_full fun _ => rfl)
      (V0 m ρ c) (V1 m ρ c) (fin0 m ρ c) (hF0 m ρ c) (hrest0 m ρ c)
    rw [Pipeline.unscopedBufs_held] at hjoin
    iintro ⟨Ha, HO, HY, Hrest⟩
    ihave Ha' := (exitArrays0 m ρ c) $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

set_option backward.isDefEq.respectTransparency.types false in
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := ((body_obligation1 (V2 m ρ) c).loose).toR
  hwaits := Pipeline.RDat.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.RDat.arrays_of_unscopedBufs (p := 1) (pcfgs (F := F)) adm (rdats m ρ) launch1.win launch1.arr_whole c
      ((rdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (ddats m ρ) ((ddats m ρ 1 c).share_full fun _ => rfl)
      (V2 m ρ c) (V3 m ρ c) (((ddats m ρ 1 c).arrAt · cfg1.N)) (hF1 m ρ c) (hrest1 m ρ c)
    rw [Pipeline.unscopedBufs_held] at hjoin
    iintro ⟨Ha, HO, HY, Hrest⟩
    ihave Ha' := (exitArrays1 m ρ c) $$ Ha
    imodintro
    isplitl [Ha' Hrest HY]
    · isplitl [Ha' Hrest]
      · iapply hjoin; isplitl [Ha'] <;> iassumption
      iexact HY
    unfold Pipeline.RDat.owesAt Pipeline.owesWithin
    icases HO with ⟨%W, -, HO⟩; iexists W; iexact HO

abbrev segs : List (Pipeline.RDat.Seg (pcfgs (F := F)) adm (rdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.RDat.Seg.run (segs m ρ) := (main_chain c).trans (by chain_rfl)

set_option backward.isDefEq.respectTransparency.types false in
/-- THE RUN. From any memory with zero counters every weakly fair execution of @main terminates, nothing faulting, and
    every final memory holds each unscoped buffer at the last boundary's contents: in particular the result array at
    what the second call's write-backs leave, and every argument as launched. -/
theorem run_val : θ_run defs (onTc (τ := τ) (main (F := F))) ⟨m, fun _ => 0, ρ⟩ (fun r => ∀ c : Dev nD,
      r.2.mem ((c.tc : Thread nD τ).loc main_v6) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.RDat.θ_run_regions_kit (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v6 (by decide))).trans (W3_arr m ρ c 6),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.Kernel.Hand

end
-- ==== Proof.IdealRegion0.lean ====
import proofs.«109090_g35089882808761_cont_8to1_b_317_18_alg».proof.Proof.Gen.KernelIdeal.Launch
import proofs.«109090_g35089882808761_cont_8to1_b_317_18_alg».proof.Proof.Gen.KernelIdeal.Skeleton
import proofs.«109090_g35089882808761_cont_8to1_b_317_18_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

/-! # The first call: layer 0 accumulated over eight contraction blocks

Grid point `(k, n)` multiplies the block of `x` with columns `2048 k …` by the block of `W0` with rows `512 n …` and
the same columns, and puts the product into columns `512 n …` of the one resident output block: at `k = 0` the product
itself, later the sum of what those columns held and the product. The output block is handed back by the pipeline only
after the last point. What the buffer holds off the columns a point stores is what it held before, so the buffer's
contents after a point are a function of its contents before it (`step0`), and the proof data relates the two. -/

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The columns a point stores: all rows, 512 columns from the point's offset. -/
abbrev r0 (i : grid0.Coords) : Rect S1024x4096 := Rect.unit (s := S1024x4096) (k0_off1 i) S1024x512.size (k0_off1_inb i)

/-- The output buffer after the body at coordinates `i`, from the two input blocks and the buffer before: the payload on
    the stored columns, the old contents elsewhere. -/
def step0 (i : grid0.Coords) (x0 : Vec F S1024x2048 .f32) (x1 : Vec F S512x2048 .f32) (Y : Vec F S1024x4096 .f32) :
    Vec F S1024x4096 .f32 := fun y =>
  if h : ∀ a, k0_off1 i a ≤ (y a).val ∧ (y a).val < k0_off1 i a + S1024x512.size a then
    k0_pay1 i x0 x1 (View.ld Y (r0 i)) (Rect.unitLocal (s := S1024x4096) (off := k0_off1 i) (size := S1024x512.size) y h)
  else Y y

theorem zero_offsets : (![0, 0] : Fin 2 → Nat) = fun _ => 0 := by
  funext a; fin_cases a <;> rfl

/-- One store of the payload through the point's columns, over a whole buffer holding `Y`, reads back as `step0`. -/
theorem read_step0 (arg4 : Memref sig .tc .vmem S1024x4096 .f32) (harg4 : arg4.IsWhole) (i : grid0.Coords)
    (x0 : Vec F S1024x2048 .f32) (x1 : Vec F S512x2048 .f32) (Y : Vec F S1024x4096 .f32) :
    arg4.view.read (Elt F) (arg4.view.writes (Elt F) (harg4.unread Y)
        [⟨r0 i, k0_pay1 i x0 x1 (View.ld Y (r0 i))⟩]) = step0 i x0 x1 Y := by
  funext y
  rw [View.read_writes_cons_unit arg4.view _ (k0_off1_inb i) _ [] y rfl]
  unfold step0
  simp only [View.writes_nil, harg4.read_unread]

set_option maxHeartbeats 1000000 in
/-- The body on whole staging memrefs holding `x0`, `x1` and `y` leaves the inputs as they were and the output buffer at
    `step0`. -/
theorem sound_kernel0 (c : Dev nD) (E : Set ℕ) (i : grid0.Coords)
    (arg2 : Memref sig .tc .vmem S1024x2048 .f32) (harg2 : arg2.IsWhole)
    (arg3 : Memref sig .tc .vmem S512x2048 .f32) (harg3 : arg3.IsWhole)
    (arg4 : Memref sig .tc .vmem S1024x4096 .f32) (harg4 : arg4.IsWhole)
    (x0 : Vec F S1024x2048 .f32) (x1 : Vec F S512x2048 .f32) (y : Vec F S1024x4096 .f32) (K : PUnit → sProp 𝕄) :
    iprop(owns (c : Thread nD τ) arg2 fullShare x0 ∗ owns (c : Thread nD τ) arg3 fullShare x1 ∗ owns (c : Thread nD τ) arg4 fullShare y
        ∗ (iprop(owns (c : Thread nD τ) arg2 fullShare x0 ∗ owns (c : Thread nD τ) arg3 fullShare x1
            ∗ owns (c : Thread nD τ) arg4 fullShare (step0 i x0 x1 y)) -∗ K ⟨⟩))
      ⊢ wp frame (wpE (defs₀ (F := F)) Variants.none c none) E (cc0__layer0_kernel i arg2 harg2 arg3 harg3 arg4 harg4) K := by
  simp only [cc0__layer0_kernel_eq_skeleton]; unfold cc0__layer0_kernel_skel
  unfold owns
  iintro ⟨⟨%f0, %hf0, H0⟩, ⟨%f1, %hf1, H1⟩, ⟨%f2, %hf2, H2⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact H2
  ipureintro
  have e0 : View.readAt (Elt F) arg2.view (Rect.unit (s := S1024x2048) ![0, 0] S1024x2048.size inb_S1024x2048_S1024x2048_0_0).toLoadRect
      (harg2.unread x0) = x0 := by
    rw [View.readAt_eq_ld, harg2.read_unread, View.ld_unit_zero zero_offsets]
  have e1 : View.readAt (Elt F) arg3.view (Rect.unit (s := S512x2048) ![0, 0] S512x2048.size inb_S512x2048_S512x2048_0_0).toLoadRect
      (harg3.unread x1) = x1 := by
    rw [View.readAt_eq_ld, harg3.read_unread, View.ld_unit_zero zero_offsets]
  have e2 : View.readAt (Elt F) arg4.view (r0 i).toLoadRect (harg4.unread y) = View.ld y (r0 i) := by
    rw [View.readAt_eq_ld, harg4.read_unread]
  rw [e0, e1, e2]
  exact read_step0 arg4 harg4 i x0 x1 y

/-! ## The proof data -/

/-- The first call's proof data on core `c`: the arrays as the call finds them; an input's buffer is left as found; the
    output's buffer after a point is `step0` of the point's input blocks and the buffer before; the scoped rest and the
    generator register pass through; nothing owed; full shares. -/
def rd0 (c : Dev nD) : RDat τ (Elt F) Unit ℕ (UR sig nD τ) ℕ cfg0 c where
  A w := V c (Pipeline.arrRef spec0 w)
  after w t := match w with
    | ⟨0, _⟩ => fun Y X => X = Y
    | ⟨1, _⟩ => fun Y X => X = Y
    | ⟨2, _⟩ => fun Y X => X = step0 (grid0.coords t) (iblk0 V c 0 t) (iblk0 V c 1 t) Y
  Φ _ := Pipeline.ΦA spec0 c
  q _ := fullShare
  owed _ := 0

theorem after0_0 (c : Dev nD) (t : Fin cfg0.N) (Y X) : (rd0 V c).after 0 t Y X ↔ X = Y := by dsimp only [rd0]; exact Iff.rfl
theorem after0_1 (c : Dev nD) (t : Fin cfg0.N) (Y X) : (rd0 V c).after 1 t Y X ↔ X = Y := by dsimp only [rd0]; exact Iff.rfl
theorem after0_2 (c : Dev nD) (t : Fin cfg0.N) (Y X) :
    (rd0 V c).after 2 t Y X ↔ X = step0 (grid0.coords t) (iblk0 V c 0 t) (iblk0 V c 1 t) Y := by dsimp only [rd0]; exact Iff.rfl

/-- An input's current staging buffer holds its block at every point, fetched there or not. -/
theorem finds0_0 (c : Dev nD) (t : Fin cfg0.N) (Y) (h : (rd0 V c).Finds 0 t Y) : Y = iblk0 V c 0 t := by
  obtain ⟨d, hd⟩ := (rd0 V c).finds_in_eq_fetched 0 rfl (fun _ _ _ => rfl) (fun t Y X h => (after0_0 V c t Y X).mp h) t Y h
  rw [hd]; unfold RDat.fetched RDat.blockOf iblk0; rfl
theorem finds0_1 (c : Dev nD) (t : Fin cfg0.N) (Y) (h : (rd0 V c).Finds 1 t Y) : Y = iblk0 V c 1 t := by
  obtain ⟨d, hd⟩ := (rd0 V c).finds_in_eq_fetched 1 rfl (fun _ _ _ => rfl) (fun t Y X h => (after0_1 V c t Y X).mp h) t Y h
  rw [hd]; unfold RDat.fetched RDat.blockOf iblk0; rfl

/-! ## The body obligation -/

theorem sound_body0 (c : Dev nD) (t : Fin cfg0.N) (y2 : Vec F S1024x4096 .f32) :
    iprop((rd0 V c).Φ t.castSucc ∗ (rd0 V c).owesAt () t.castSucc
        ∗ owns (c : Thread nD τ) (st0_0 t) fullShare (iblk0 V c 0 t)
        ∗ owns (c : Thread nD τ) (st0_1 t) fullShare (iblk0 V c 1 t)
        ∗ owns (c : Thread nD τ) (st0_2 t) fullShare y2)
      ⊢ wp frame (wpE (defs₀ (F := F)) Variants.none c none) Set.univ (bodyAt0 t) (fun _ =>
        iprop((rd0 V c).Φ t.succ ∗ (rd0 V c).owesAt () t.succ
          ∗ (∃ X, ⌜(rd0 V c).after 0 t (iblk0 V c 0 t) X⌝ ∗ owns (c : Thread nD τ) (st0_0 t) fullShare X)
          ∗ (∃ X, ⌜(rd0 V c).after 1 t (iblk0 V c 1 t) X⌝ ∗ owns (c : Thread nD τ) (st0_1 t) fullShare X)
          ∗ (∃ X, ⌜(rd0 V c).after 2 t y2 X⌝ ∗ owns (c : Thread nD τ) (st0_2 t) fullShare X))) := by
  unfold bodyAt0
  rw [show (rd0 V c).Φ t.succ = (rd0 V c).Φ t.castSucc from rfl,
    show (rd0 V c).owesAt () t.succ = (rd0 V c).owesAt () t.castSucc from rfl]
  iintro ⟨HΦ, Ho, H0, H1, H2⟩
  iapply (sound_kernel0 c Set.univ (grid0.coords t) _ _ _ _ _ _ (iblk0 V c 0 t) (iblk0 V c 1 t) y2 _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists _; isplitr; · ipureintro; exact (after0_0 V c t _ _).mpr rfl
    iexact H0
  isplitl [H1]
  · iexists _; isplitr; · ipureintro; exact (after0_1 V c t _ _).mpr rfl
    iexact H1
  iexists _; isplitr; · ipureintro; exact (after0_2 V c t _ _).mpr rfl
  iexact H2

/-- The body obligation of the relational proof data, at every point. -/
theorem body_obligation0 (c : Dev nD) : (rd0 (F := F) V c).BodyObligation (defs₀ (F := F)) Variants.none () Set.univ := fun t Y hY => by
  rw [bigSep_W0, bigSep_W0]
  have h0 := finds0_0 V c t (Y 0) (hY 0)
  have h1 := finds0_1 V c t (Y 1) (hY 1)
  rw [h0, h1]
  exact sound_body0 V c t (Y 2)

end Cert.KernelIdeal.Hand

end
-- ==== Proof.IdealAccumDefs.lean ====
import proofs.«109090_g35089882808761_cont_8to1_b_317_18_alg».proof.Proof.IdealRegion0
import Idealize.ShloMosaic.Lib.ValueIdx

set_option maxRecDepth 16384

noncomputable section

namespace Cert.KernelIdeal.Hand

open Idealize.ShloMosaic Idealize.ShloMosaic.TcCoe
open Idealize.SL Idealize.SL.Sem
open Idealize.ShloMosaic.Pipeline (RDat)
open Cert.KernelIdeal Cert.KernelIdeal.Gen

variable {F : FTy → Type} [FloatOps F]

/-! # The first call's result, column block by column block

Column block `n` (columns `512 n … 512 n + 511`) of the resident output is stored at the grid points `8 j + n`,
`j = 0 … 7`: at `j = 0` the product of the point's blocks, at `j + 1` the sum of what it held and the point's product.
So after point `t` column block `n ≤ t` holds its accumulation through contraction block `(t - n) / 8`, and after the last
point every column block holds its accumulation through block 7. -/

variable (V : (c : Dev nD) → (b : Ref sig .tc) → Buf (Elt F) ((c : Thread nD τ).loc b))

/-- The grid point of contraction block `j` and column block `n`. -/
def pt0 (j : ℕ) (n : Fin 8) (hj : j < 8) : Fin cfg0.N := ⟨8 * j + n.val, by rw [show cfg0.N = 64 from N_0]; omega⟩

/-- Column block `n` after contraction blocks `0 … j`: the payload of the point's two input blocks, over the block's
    earlier contents (which the payload ignores at `j = 0`). -/
def colAcc (c : Dev nD) (n : Fin 8) : ℕ → Vec F S1024x512 .f32
  | 0 => k0_pay1 (grid0.coords (pt0 0 n (by omega))) (iblk0 V c 0 (pt0 0 n (by omega))) (iblk0 V c 1 (pt0 0 n (by omega)))
      (constant S1024x512 .f32 0x00000000#32)
  | j + 1 =>
    if h : j + 1 < 8 then
      k0_pay1 (grid0.coords (pt0 (j + 1) n h)) (iblk0 V c 0 (pt0 (j + 1) n h)) (iblk0 V c 1 (pt0 (j + 1) n h)) (colAcc c n j)
    else colAcc c n j

/-- The column block an index of the result lies in, and its position inside the block. -/
def colOf (y : S1024x4096.Idx) : Fin 8 := ⟨(y 1).val / 512, by have h : (y 1).val < 4096 := (y 1).isLt; omega⟩
def loc0 (y : S1024x4096.Idx) : S1024x512.Idx :=
  ValueIdx.ix2 (⟨(y 0).val, (y 0).isLt⟩ : Fin 1024) (⟨(y 1).val % 512, Nat.mod_lt _ (by decide)⟩ : Fin 512)

/-- The first call's result: every column block accumulated through the last contraction block. -/
def H0 (c : Dev nD) : Vec F S1024x4096 .f32 := fun y => colAcc V c (colOf y) 7 (loc0 y)

/-- What the output buffer holds after point `t`: column block `n ≤ t` accumulated through contraction block `(t - n) / 8`
    (nothing is said of a column block not yet stored). -/
def Inv0 (c : Dev nD) (t : ℕ) (X : Vec F S1024x4096 .f32) : Prop :=
  ∀ y : S1024x4096.Idx, (colOf y).val ≤ t → X y = colAcc V c (colOf y) ((t - (colOf y).val) / 8) (loc0 y)

end Cert.KernelIdeal.Hand

end
-- ==== Proof.IdealAccum.lean ====
import proofs.«109090_g35089882808761_cont_8to1_b_317_18_alg».proof.Proof.IdealAccumDefs

/-!
  The first call's running accumulation, point by point.

  The grid's point number t has contraction block t / 8 and column block t % 8. A point stores on the 512 columns of
  its column block and nowhere else, so an index of the output lies on the stored columns exactly when its column
  block is the point's. On those columns the point stores the product of its two input blocks at contraction block 0
  (whatever the columns held), and otherwise that product added to what the columns held, which by the invariant is
  the accumulation through the previous contraction block. Off those columns the contents and the accumulation count
  are unchanged. After the last point every column block is accumulated through contraction block 7.
-/

set_option maxRecDepth 16384

noncomputable section

namespace Cert.KernelIdeal.Hand

open Idealize.ShloMosaic Idealize.ShloMosaic.TcCoe
open Idealize.SL Idealize.SL.Sem
open Idealize.ShloMosaic.Pipeline (RDat)
open Cert.KernelIdeal Cert.KernelIdeal.Gen

variable {F : FTy → Type} [FloatOps F]

variable (V : (c : Dev nD) → (b : Ref sig .tc) → Buf (Elt F) ((c : Thread nD τ).loc b))

/-! ## The stored value at contraction block 0 ignores the old contents -/

/-- At contraction block 0 the stored value does not depend on what the columns held. -/
theorem pay_first (i : grid0.Coords) (hi : (i 0).val = 0) (v0 : Vec F S1024x2048 .f32) (v2 : Vec F S512x2048 .f32)
    (v8 v8' : Vec F S1024x512 .f32) : k0_pay1 i v0 v2 v8 = k0_pay1 i v0 v2 v8' := by
  have hc : Scalar.cmpi .eq (BitVec.ofNat 32 (i 0).val) 0#32 = 1#1 := by rw [hi]; rfl
  unfold k0_pay1
  simp only [hc, ValueIdx.select_one]

/-! ## The grid's coordinates and the stored columns -/

/-- Point t has contraction block t / 8 and column block t % 8. -/
theorem coords0 : ∀ t : Fin grid0.N, ((grid0.coords t) 0).val = t.val / 8 ∧ ((grid0.coords t) 1).val = t.val % 8 := by
  decide +kernel

/-- An index lies on the columns a point stores exactly when its column block is the point's. -/
theorem mem_cols (i : grid0.Coords) (y : S1024x4096.Idx) :
    (∀ a, k0_off1 i a ≤ (y a).val ∧ (y a).val < k0_off1 i a + S1024x512.size a) ↔ (colOf y).val = (i 1).val := by
  rw [k0_off1_eq]
  have h0 : (y 0).val < 1024 := (y 0).isLt
  have h1 : (y 1).val < 4096 := (y 1).isLt
  have hi : (i 1).val < 8 := (i 1).isLt
  constructor
  · intro h
    have h' := h 1
    change 512 * (i 1).val ≤ (y 1).val ∧ (y 1).val < 512 * (i 1).val + 512 at h'
    show (y 1).val / 512 = (i 1).val
    omega
  · intro h a
    change (y 1).val / 512 = (i 1).val at h
    match a with
    | ⟨0, _⟩ => show 0 ≤ (y 0).val ∧ (y 0).val < 0 + 1024; omega
    | ⟨1, _⟩ => show 512 * (i 1).val ≤ (y 1).val ∧ (y 1).val < 512 * (i 1).val + 512; omega

/-- On the stored columns, the index's position inside them is its position inside its column block. -/
theorem unitLocal_eq_loc0 (i : grid0.Coords) (y : S1024x4096.Idx)
    (h : ∀ a, k0_off1 i a ≤ (y a).val ∧ (y a).val < k0_off1 i a + S1024x512.size a) :
    Rect.unitLocal (s := S1024x4096) (off := k0_off1 i) (size := S1024x512.size) y h = loc0 y := by
  have e := k0_off1_eq i
  funext a
  apply Fin.ext
  rw [Rect.unitLocal_val]
  have ha := h a
  rw [e] at ha ⊢
  match a with
  | ⟨0, _⟩ =>
    show (y 0).val - 0 = (y 0).val
    omega
  | ⟨1, _⟩ =>
    change 512 * (i 1).val ≤ (y 1).val ∧ (y 1).val < 512 * (i 1).val + 512 at ha
    show (y 1).val - 512 * (i 1).val = (y 1).val % 512
    omega

/-- The index of the output at position z of the columns a point stores lies in the point's column block … -/
theorem colOf_idx (i : grid0.Coords) (z : S1024x512.Idx) : (colOf ((r0 i).idx z)).val = (i 1).val := by
  have hz : (z 1).val < 512 := (z 1).isLt
  have e : (((r0 i).idx z) 1).val = k0_off1 i 1 + 1 * (z 1).val := rfl
  show (((r0 i).idx z) 1).val / 512 = (i 1).val
  rw [e, k0_off1_eq]
  show (512 * (i 1).val + 1 * (z 1).val) / 512 = (i 1).val
  omega

/-- … at position z inside it. -/
theorem loc0_idx (i : grid0.Coords) (z : S1024x512.Idx) : loc0 ((r0 i).idx z) = z := by
  have hz : (z 1).val < 512 := (z 1).isLt
  have e0 : (((r0 i).idx z) 0).val = k0_off1 i 0 + 1 * (z 0).val := rfl
  have e1 : (((r0 i).idx z) 1).val = k0_off1 i 1 + 1 * (z 1).val := rfl
  funext a
  apply Fin.ext
  match a with
  | ⟨0, _⟩ =>
    show (((r0 i).idx z) 0).val = (z 0).val
    rw [e0, k0_off1_eq]
    show 0 + 1 * (z 0).val = (z 0).val
    omega
  | ⟨1, _⟩ =>
    show (((r0 i).idx z) 1).val % 512 = (z 1).val
    rw [e1, k0_off1_eq]
    show (512 * (i 1).val + 1 * (z 1).val) % 512 = (z 1).val
    omega

/-! ## A point's stored value is the next accumulation -/

/-- The point of contraction block 0 and column block n stores the accumulation through block 0. -/
theorem pay_at_first (c : Dev nD) (n : Fin 8) (t : Fin cfg0.N) (ht : t.val = n.val) (v8 : Vec F S1024x512 .f32) :
    k0_pay1 (grid0.coords t) (iblk0 V c 0 t) (iblk0 V c 1 t) v8 = colAcc V c n 0 := by
  have hn : n.val < 8 := n.isLt
  obtain rfl : t = pt0 0 n (Nat.succ_pos 7) := Fin.ext (by rw [ht]; show n.val = 8 * 0 + n.val; omega)
  rw [colAcc]
  refine pay_first _ ?_ _ _ _ _
  rw [(coords0 _).1]
  show (8 * 0 + n.val) / 8 = 0
  omega

/-- The point of contraction block j + 1 and column block n, over the accumulation through block j, stores the
    accumulation through block j + 1. -/
theorem pay_at_succ (c : Dev nD) (n : Fin 8) (j : ℕ) (hj : j + 1 < 8) (t : Fin cfg0.N) (ht : t.val = 8 * (j + 1) + n.val) :
    k0_pay1 (grid0.coords t) (iblk0 V c 0 t) (iblk0 V c 1 t) (colAcc V c n j) = colAcc V c n (j + 1) := by
  obtain rfl : t = pt0 (j + 1) n hj := Fin.ext ht
  conv_rhs => rw [colAcc]
  rw [dif_pos hj]

/-! ## The invariant -/

/-- After the first point column block 0 holds its accumulation through contraction block 0. -/
theorem inv_first (c : Dev nD) (h0 : 0 < cfg0.N) (Y : Vec F S1024x4096 .f32) :
    Inv0 V c 0 (step0 (grid0.coords ⟨0, h0⟩) (iblk0 V c 0 ⟨0, h0⟩) (iblk0 V c 1 ⟨0, h0⟩) Y) := by
  intro y hy
  have hn : (colOf y).val = 0 := by omega
  obtain ⟨hc0, hc1⟩ := coords0 ⟨0, h0⟩
  have hmem := (mem_cols (grid0.coords ⟨0, h0⟩) y).mpr (by rw [hn, hc1]; rfl)
  unfold step0
  rw [dif_pos hmem, unitLocal_eq_loc0]
  have e : (0 - (colOf y).val) / 8 = 0 := by omega
  rw [e]
  exact congrFun (pay_at_first V c (colOf y) ⟨0, h0⟩ hn.symm _) (loc0 y)

/-- The invariant passes from one point to the next. -/
theorem inv_step (c : Dev nD) (t : ℕ) (ht : t + 1 < cfg0.N) (X : Vec F S1024x4096 .f32) (h : Inv0 V c t X) :
    Inv0 V c (t + 1) (step0 (grid0.coords ⟨t + 1, ht⟩) (iblk0 V c 0 ⟨t + 1, ht⟩) (iblk0 V c 1 ⟨t + 1, ht⟩) X) := by
  have hN : cfg0.N = 64 := N_0
  have ht64 : t + 1 < 64 := by rw [hN] at ht; exact ht
  obtain ⟨hc0, hc1⟩ := coords0 ⟨t + 1, ht⟩
  change ((grid0.coords ⟨t + 1, ht⟩) 0).val = (t + 1) / 8 at hc0
  change ((grid0.coords ⟨t + 1, ht⟩) 1).val = (t + 1) % 8 at hc1
  intro y hy
  have hn8 : (colOf y).val < 8 := (colOf y).isLt
  unfold step0
  by_cases hm : (colOf y).val = (t + 1) % 8
  · have hmem := (mem_cols (grid0.coords ⟨t + 1, ht⟩) y).mpr (by rw [hc1]; exact hm)
    rw [dif_pos hmem, unitLocal_eq_loc0]
    refine congrFun ?_ (loc0 y)
    rcases Nat.eq_zero_or_pos ((t + 1) / 8) with hz | hp
    · have e : (t + 1 - (colOf y).val) / 8 = 0 := by omega
      rw [e]
      exact pay_at_first V c (colOf y) ⟨t + 1, ht⟩ (by show t + 1 = (colOf y).val; omega) _
    · obtain ⟨j, hj⟩ : ∃ j, (t + 1) / 8 = j + 1 := ⟨(t + 1) / 8 - 1, by omega⟩
      have e : (t + 1 - (colOf y).val) / 8 = j + 1 := by omega
      have hj8 : j + 1 < 8 := by omega
      rw [e]
      have hld : View.ld X (r0 (grid0.coords ⟨t + 1, ht⟩)) = colAcc V c (colOf y) j := by
        funext z
        show X ((r0 (grid0.coords ⟨t + 1, ht⟩)).idx z) = _
        have hz : colOf ((r0 (grid0.coords ⟨t + 1, ht⟩)).idx z) = colOf y :=
          Fin.ext (by rw [colOf_idx, hc1, hm])
        have e' : (t - (colOf y).val) / 8 = j := by omega
        rw [h _ (by rw [hz]; omega), hz, loc0_idx, e']
      rw [hld]
      exact pay_at_succ V c (colOf y) j hj8 ⟨t + 1, ht⟩ (by show t + 1 = 8 * (j + 1) + (colOf y).val; omega)
  · have hnm : ¬ ∀ a, k0_off1 (grid0.coords ⟨t + 1, ht⟩) a ≤ (y a).val
        ∧ (y a).val < k0_off1 (grid0.coords ⟨t + 1, ht⟩) a + S1024x512.size a :=
      fun hmem => hm (((mem_cols _ y).mp hmem).trans hc1)
    rw [dif_neg hnm]
    have hle : (colOf y).val ≤ t := by omega
    have e : (t + 1 - (colOf y).val) / 8 = (t - (colOf y).val) / 8 := by omega
    rw [h y hle, e]

/-- After the last point the buffer holds every column block accumulated through contraction block 7. -/
theorem inv_last (c : Dev nD) (X : Vec F S1024x4096 .f32) (h : Inv0 V c 63 X) : X = H0 V c := by
  funext y
  have hn8 : (colOf y).val < 8 := (colOf y).isLt
  have e : (63 - (colOf y).val) / 8 = 7 := by omega
  rw [h y (by omega), e]
  rfl

end Cert.KernelIdeal.Hand

end
-- ==== Proof.IdealLeaves.lean ====
import proofs.«109090_g35089882808761_cont_8to1_b_317_18_alg».proof.Proof.IdealAccum
import Idealize.ShloMosaic.Lib.Pipeline.Cells

set_option maxRecDepth 16384

noncomputable section

namespace Cert.KernelIdeal.Hand

open Idealize.ShloMosaic Idealize.ShloMosaic.TcCoe
open Idealize.SL Idealize.SL.Sem
open Idealize.ShloMosaic.Pipeline (RDat)
open Cert.KernelIdeal Cert.KernelIdeal.Gen

variable {F : FTy → Type} [FloatOps F]

/-! # What the first call writes back

The output window's one block is written back after the last grid point only, so the array ends holding what the body
left in the buffer at the last point, written through that block; and what the body leaves at a point satisfies the
column-block invariant of the point, by induction over the points (the buffer is handed from point to point without a
fetch or a write-back in between). -/

variable (V : (c : Dev nD) → (b : Ref sig .tc) → Buf (Elt F) ((c : Thread nD τ).loc b))

/-- The output window is never fetched. -/
theorem fetch0_2 : ∀ t : Fin cfg0.N, (cfg0.win 2).fetch t = false :=
  (by decide +kernel : ∀ t : Fin grid0.N, win0_2.fetch t = false)

/-- What the body may leave in the output buffer at point `n` satisfies the invariant of point `n`. -/
theorem leaves_inv (c : Dev nD) : ∀ (n : ℕ) (hn : n < cfg0.N) (X), (rd0 V c).Leaves 2 ⟨n, hn⟩ X → Inv0 V c n X
  | 0, hn, X, ⟨Y, _, hX⟩ => by
    rw [(after0_2 V c ⟨0, hn⟩ Y X).mp hX]; exact inv_first V c hn Y
  | n + 1, hn, X, ⟨Y, hY, hX⟩ => by
    rw [(after0_2 V c ⟨n + 1, hn⟩ Y X).mp hX]
    have hn' : n < cfg0.N := Nat.lt_of_succ_lt hn
    rcases ((rd0 V c).finds_of_pos (fetch0_2 ⟨n + 1, hn⟩) (Nat.succ_ne_zero n) Y).mp hY with hfl | hL
    · exfalso
      have h63 := (flush0_2 _).mp hfl
      have hN : n + 1 < 64 := lt_of_lt_of_eq hn N_0
      dsimp only at h63; omega
    · exact inv_step V c n hn Y (leaves_inv c n hn' Y hL)

/-- Below the last point nothing has been written back: the array is as the call found it. -/
theorem arrAt0_below (c : Dev nD) : ∀ n, n ≤ 63 → (rd0 V c).ArrAt 2 n = fun G => G = (rd0 V c).A 2
  | 0, _ => rfl
  | n + 1, h => by
    have hn : n < cfg0.N := by rw [show cfg0.N = 64 from N_0]; omega
    refine ((rd0 V c).ArrAt_succ 2 ⟨n, hn⟩).trans ?_
    rw [if_neg, arrAt0_below c n (by omega)]
    intro hfl
    have h63 := (flush0_2 ⟨n, hn⟩).mp hfl
    dsimp only at h63; omega

/-- The last grid point. -/
def tlast0 : Fin cfg0.N := ⟨63, by rw [show cfg0.N = 64 from N_0]; omega⟩

/-- The result array when the first call returns: the closed form of the accumulation, written through the window's
    one block over what the array held. -/
def fin0_2 (c : Dev nD) : Buf (Elt F) ((cfg0.win 2).arr.view.loc (c.tc : Thread nD τ)) :=
  ((cfg0.win 2).blk tlast0).view.write (Elt F) ((rd0 V c).A 2) ((cfg0.win 2).cut (cfg0.grid.coords tlast0) (H0 V c)) Finset.univ

theorem arrAt0_2 (c : Dev nD) (G) (h : (rd0 V c).ArrAt 2 cfg0.N G) : G = fin0_2 V c := by
  have e1 : (rd0 V c).ArrAt 2 cfg0.N = (rd0 V c).ArrAt 2 (tlast0.val + 1) :=
    congrArg ((rd0 V c).ArrAt 2) (show cfg0.N = 63 + 1 from N_0)
  rw [e1, (rd0 V c).ArrAt_succ 2 tlast0, if_pos ((flush0_2 tlast0).mpr (by decide)),
    show (rd0 V c).ArrAt 2 (tlast0 : Fin cfg0.N).val = (fun G => G = (rd0 V c).A 2) from arrAt0_below V c 63 le_rfl] at h
  obtain ⟨G₀, X, hG₀, hX, rfl⟩ := h
  rw [hG₀, inv_last V c X (leaves_inv V c 63 tlast0.isLt X hX)]
  rfl

/-- The input arrays are never written. -/
theorem arrAt0_0 (c : Dev nD) (G) (h : (rd0 V c).ArrAt 0 cfg0.N G) : G = (rd0 V c).A 0 := by
  rw [(rd0 V c).ArrAt_in 0 rfl cfg0.N] at h; exact h
theorem arrAt0_1 (c : Dev nD) (G) (h : (rd0 V c).ArrAt 1 cfg0.N G) : G = (rd0 V c).A 1 := by
  rw [(rd0 V c).ArrAt_in 1 rfl cfg0.N] at h; exact h

end Cert.KernelIdeal.Hand

end
-- ==== Proof.IdealRegion1.lean ====
import proofs.«109090_g35089882808761_cont_8to1_b_317_18_alg».proof.Proof.Gen.KernelIdeal.Launch
import proofs.«109090_g35089882808761_cont_8to1_b_317_18_alg».proof.Proof.Gen.KernelIdeal.Skeleton
import proofs.«109090_g35089882808761_cont_8to1_b_317_18_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

/-! # The second call: bias, rectifier and the two small layers, one block of 256 rows per grid point

Each point reads its 256 rows of the first call's result and the whole of the two small weight matrices and the three
bias rows, and stores the block's 256 × 256 results through the whole output block: what the output block holds after
the body is the payload of the six input blocks, whatever it held before. -/

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem zero_offsets1 : (![0, 0] : Fin 2 → Nat) = fun _ => 0 := by
  funext a; fin_cases a <;> rfl

/-- A load of a whole buffer through the whole-shape rectangle reads its contents. -/
theorem readAt_whole {d : Fin 2 → Nat} {e : EltTy} (m : Memref sig .tc .vmem ⟨2, d⟩ e) (hm : m.IsWhole)
    (inb : ∀ a, (![0, 0] : Fin 2 → Nat) a + (⟨2, d⟩ : Shape).size a ≤ (⟨2, d⟩ : Shape).size a) (X : (⟨2, d⟩ : Shape).Idx → Elt F e) :
    View.readAt (Elt F) m.view (Rect.unit (s := ⟨2, d⟩) ![0, 0] (⟨2, d⟩ : Shape).size inb).toLoadRect (hm.unread X) = X := by
  rw [View.readAt_eq_ld, hm.read_unread, View.ld_unit_zero zero_offsets1]

set_option maxHeartbeats 2000000 in
/-- The body on whole staging memrefs, the six inputs' at `x0 … x5` and the output's at anything, leaves the inputs as
    they were and the output block at the payload. -/
theorem sound_kernel1 (c : Dev nD) (E : Set ℕ) (i : grid1.Coords)
    (arg1 : Memref sig .tc .vmem S256x4096 .f32) (harg1 : arg1.IsWhole) (arg2 : Memref sig .tc .vmem S1024x4096 .bf16) (harg2 : arg2.IsWhole)
    (arg3 : Memref sig .tc .vmem S256x1024 .bf16) (harg3 : arg3.IsWhole) (arg4 : Memref sig .tc .vmem S1x4096 .f32) (harg4 : arg4.IsWhole)
    (arg5 : Memref sig .tc .vmem S1x1024 .f32) (harg5 : arg5.IsWhole) (arg6 : Memref sig .tc .vmem S1x256 .f32) (harg6 : arg6.IsWhole)
    (arg7 : Memref sig .tc .vmem S256x256 .f32) (harg7 : arg7.IsWhole)
    (x0 : Vec F S256x4096 .f32) (x1 : Vec F S1024x4096 .bf16) (x2 : Vec F S256x1024 .bf16) (x3 : Vec F S1x4096 .f32)
    (x4 : Vec F S1x1024 .f32) (x5 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k1_pay1 x0 x3 x1 x4 x2 x5)) -∗ K ⟨⟩))
      ⊢ wp frame (wpE (defs₀ (F := F)) Variants.none c none) E
          (cc1__tail_kernel i arg1 harg1 arg2 harg2 arg3 harg3 arg4 harg4 arg5 harg5 arg6 harg6 arg7 harg7) K := by
  simp only [cc1__tail_kernel_eq_skeleton]; unfold cc1__tail_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  iexists _; isplitr
  swap; · iexact H6
  ipureintro
  rw [readAt_whole arg1 harg1, readAt_whole arg2 harg2, readAt_whole arg3 harg3, readAt_whole arg4 harg4,
    readAt_whole arg5 harg5, readAt_whole arg6 harg6]
  rw [View.read_writes_eq_canon _ _ _ (fun y => ⟨_, List.mem_singleton_self _, View.mem_set_unit_zero zero_offsets1 inb_S256x256_S256x256_0_0 y⟩),
    View.canon_unit_zero zero_offsets1]

/-! ## The proof data -/

/-- The second call's proof data on core `c`: the arrays as the call finds them; after the body each input's buffer at
    its block and the output's at the payload of the six input blocks; the scoped rest and the generator register pass
    through; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay1 (iblk1 V c 0 t) (iblk1 V c 3 t) (iblk1 V c 1 t) (iblk1 V c 4 t) (iblk1 V c 2 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = k1_pay1 (iblk1 V c 0 t) (iblk1 V c 3 t) (iblk1 V c 1 t) (iblk1 V c 4 t) (iblk1 V c 2 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
import proofs.«109090_g35089882808761_cont_8to1_b_317_18_alg».proof.Proof.IdealLeaves
import proofs.«109090_g35089882808761_cont_8to1_b_317_18_alg».proof.Proof.IdealRegion1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

/-! # The run: the first call, five host operations, the second call

The buffers' contents at each boundary are a fold from the launch memory: the first call leaves its two inputs as
found and its result at the closed form of the accumulation; the host operations write five fresh buffers; the second
call leaves its six inputs as found and its result at what its write-backs make of the blocks. Every unscoped buffer
is tracked at these contents from boundary to boundary; at the end the final memory is read against the last of them. -/

variable (m : (ℓ : Loc nD τ sig) → Buf (Elt F) ℓ) (ρ : Dev nD → PrngReg)

/-- Core `c`'s buffers at launch, which is where the first call is entered. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- The first call's arrays when it returns. -/
def fin0 (c : Dev nD) : (w : Fin cfg0.W) → Buf (Elt F) ((cfg0.win w).arr.view.loc (c.tc : Thread nD τ))
  | ⟨0, _⟩ => (rd0 (V0 m ρ) c).A 0
  | ⟨1, _⟩ => (rd0 (V0 m ρ) c).A 1
  | ⟨2, _⟩ => fin0_2 (V0 m ρ) c

theorem arrAt0 (c : Dev nD) (w : Fin cfg0.W) (G) (h : (rd0 (V0 m ρ) c).ArrAt w cfg0.N G) : G = fin0 m ρ c w := by
  match w with
  | ⟨0, _⟩ => exact arrAt0_0 (V0 m ρ) c G h
  | ⟨1, _⟩ => exact arrAt0_1 (V0 m ρ) c G h
  | ⟨2, _⟩ => exact arrAt0_2 (V0 m ρ) c G h

/-- After the first call. -/
def W1 (c : Dev nD) : Valuation τ sig (Elt F) := Pipeline.withArrays spec0 c (W0 m ρ c) fun w => fin0 m ρ c w
theorem W1_arr (c : Dev nD) (w : Fin cfg0.W) : W1 m ρ c (Proc.devRef .tc (Pipeline.arrRef spec0 w)) = fin0 m ρ c w := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : fin0 m ρ c w = V1 m ρ c (Pipeline.arrRef spec0 w) := (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations: where the second call is entered. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- After the second call. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### No item writes an argument -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans rfl
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 1).trans rfl
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := W1_of_ne m ρ c main_arg3 (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := W1_of_ne m ρ c main_arg4 (by decide)
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := W1_of_ne m ρ c main_arg5 (by decide)
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := W1_of_ne m ρ c main_arg6 (by decide)
    _ = m ((c : Thread nD τ).loc main_arg6) := rfl

/-! ## The proof data family and the thread state -/

abbrev adm : (p : Fin 2) → (pcfgs (F := F) p).Adm := fun p => (cfgs p).toPCfg_adm

/-- Both calls' proof data: the first call's relational, the second call's exact read relationally. -/
def rdats : (p : Fin 2) → (c : Dev nD) → RDat τ (Elt F) Unit ℕ (UR sig nD τ) ℕ (Pipeline.pin (pcfgs (F := F)) adm p) c
  | ⟨0, _⟩ => fun c => rd0 (V0 m ρ) c
  | ⟨1, _⟩ => fun c => (dat1 (V2 m ρ) c).toR

/-- The first call's arrays and shares as exact proof data (its buffers' contents not named), so that the library's
    lemma putting a call's arrays back among the unscoped buffers applies to both calls. -/
def dd0 (c : Dev nD) : Dat τ (Elt F) Unit ℕ (UR sig nD τ) ℕ cfg0 c where
  A := (rd0 (V0 m ρ) c).A
  after w t := Dat.unnamed w t
  Φ _ := Pipeline.ΦA spec0 c
  q _ := fullShare
  owed _ := 0
def ddats : (p : Fin 2) → (c : Dev nD) → Dat τ (Elt F) Unit ℕ (UR sig nD τ) ℕ (Pipeline.pin (pcfgs (F := F)) adm p) c
  | ⟨0, _⟩ => fun c => dd0 m ρ c
  | ⟨1, _⟩ => fun c => dat1 (V2 m ρ) c

abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-- The first call's arrays at its exit, at some contents the relation allows, are its arrays at the closed forms. -/
theorem exitArrays0 (c : Dev nD) : (rdats m ρ 0 c).arraysAt cfg0.N ⊢ ((ddats m ρ 0 c).arrays (fin0 m ρ c) : sProp 𝕄) := by
  show (rd0 (V0 m ρ) c).arraysAt cfg0.N ⊢ ((dd0 m ρ c).arrays (fin0 m ρ c) : sProp 𝕄)
  have h1 : ∀ w : Fin cfg0.W,
      iprop(∃ G, ⌜(rd0 (V0 m ρ) c).ArrAt w cfg0.N G⌝ ∗ (cfg0.win w).arr.view.loc (c.tc : Thread nD τ) ↦[(cfg0.win w).arr.view.set]{(rd0 (V0 m ρ) c).share w} G)
      ⊢ ((cfg0.win w).arr.view.loc (c.tc : Thread nD τ) ↦[(cfg0.win w).arr.view.set]{(dd0 m ρ c).share w} fin0 m ρ c w : sProp 𝕄) := by
    intro w
    iintro ⟨%G, %hG, H⟩
    rw [arrAt0 m ρ c w G hG]
    iexact H
  unfold RDat.arraysAt Dat.arrays
  exact bigSep_mono fun w _ => h1 w
/-- The second call's, by the exact data's own closed form. -/
theorem exitArrays1 (c : Dev nD) : (rdats m ρ 1 c).arraysAt cfg1.N ⊢ ((ddats m ρ 1 c).arrays ((ddats m ρ 1 c).arrAt · cfg1.N) : sProp 𝕄) := by
  show (dat1 (V2 m ρ) c).toR.arraysAt cfg1.N ⊢ ((dat1 (V2 m ρ) c).arrays ((dat1 (V2 m ρ) c).arrAt · cfg1.N) : sProp 𝕄)
  rw [(dat1 (V2 m ρ) c).toR_arraysAt_eq cfg1.N]

/-! ## The calls as segments -/

set_option backward.isDefEq.respectTransparency.types false in
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := body_obligation0 (V0 m ρ) c
  hwaits := Pipeline.RDat.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.RDat.arrays_of_unscopedBufs (p := 0) (pcfgs (F := F)) adm (rdats m ρ) launch0.win launch0.arr_whole c
      ((rdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (ddats m ρ) ((ddats m ρ 0 c).share_full fun _ => rfl)
      (V0 m ρ c) (V1 m ρ c) (fin0 m ρ c) (hF0 m ρ c) (hrest0 m ρ c)
    rw [Pipeline.unscopedBufs_held] at hjoin
    iintro ⟨Ha, HO, HY, Hrest⟩
    ihave Ha' := (exitArrays0 m ρ c) $$ Ha
    imodintro
    isplitl [Ha' Hrest]
    · iapply hjoin; isplitl [Ha'] <;> iassumption
    isplitl [HY]; · iexact HY
    unfold Pipeline.RDat.owesAt Pipeline.owesWithin
    icases HO with ⟨%W, -, HO⟩; iexists W; iexact HO

set_option backward.isDefEq.respectTransparency.types false in
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := ((body_obligation1 (V2 m ρ) c).loose).toR
  hwaits := Pipeline.RDat.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.RDat.arrays_of_unscopedBufs (p := 1) (pcfgs (F := F)) adm (rdats m ρ) launch1.win launch1.arr_whole c
      ((rdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (ddats m ρ) ((ddats m ρ 1 c).share_full fun _ => rfl)
      (V2 m ρ c) (V3 m ρ c) (((ddats m ρ 1 c).arrAt · cfg1.N)) (hF1 m ρ c) (hrest1 m ρ c)
    rw [Pipeline.unscopedBufs_held] at hjoin
    iintro ⟨Ha, HO, HY, Hrest⟩
    ihave Ha' := (exitArrays1 m ρ c) $$ Ha
    imodintro
    isplitl [Ha' Hrest HY]
    · isplitl [Ha' Hrest]
      · iapply hjoin; isplitl [Ha'] <;> iassumption
      iexact HY
    unfold Pipeline.RDat.owesAt Pipeline.owesWithin
    icases HO with ⟨%W, -, HO⟩; iexists W; iexact HO

abbrev segs : List (Pipeline.RDat.Seg (pcfgs (F := F)) adm (rdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.RDat.Seg.run (segs m ρ) := (main_chain c).trans (by chain_rfl)

set_option backward.isDefEq.respectTransparency.types false in
/-- THE RUN. From any memory with zero counters every weakly fair execution of @main terminates, nothing faulting, and
    every final memory holds each unscoped buffer at the last boundary's contents: in particular the result array at
    what the second call's write-backs leave, and every argument as launched. -/
theorem run_val : θ_run defs (onTc (τ := τ) (main (F := F))) ⟨m, fun _ => 0, ρ⟩ (fun r => ∀ c : Dev nD,
      r.2.mem ((c.tc : Thread nD τ).loc main_v6) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.RDat.θ_run_regions_kit (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v6 (by decide))).trans (W3_arr m ρ c 6),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.Hand

end
-- ==== Proof.Frames.lean ====
import proofs.«109090_g35089882808761_cont_8to1_b_317_18_alg».proof.Defs
import proofs.«109090_g35089882808761_cont_8to1_b_317_18_alg».proof.Proof.Gen.Kernel
import proofs.«109090_g35089882808761_cont_8to1_b_317_18_alg».proof.Proof.Gen.KernelIdeal
import proofs.«109090_g35089882808761_cont_8to1_b_317_18_alg».proof.Proof.Gen.ReferenceIdeal
import proofs.«109090_g35089882808761_cont_8to1_b_317_18_alg».proof.Proof.Gen.Pre_finite_inputs
import proofs.«109090_g35089882808761_cont_8to1_b_317_18_alg».proof.Proof.Gen.ReferenceIdeal.Run
import proofs.«109090_g35089882808761_cont_8to1_b_317_18_alg».proof.Proof.BitsRun
import proofs.«109090_g35089882808761_cont_8to1_b_317_18_alg».proof.Proof.IdealRun

/-!
  The three frames and the idealization's ledger.

  Both kernel programs run as: the first call (layer 0 accumulated over eight contraction blocks into one resident
  output block), five host operations (two format changes and three reshapes of the small weights and biases), the
  second call (bias, rectifier and the two small layers, 256 rows at a time). The run of that sequence, at any float
  instance, ends with every unscoped buffer at contents folded from the launch memory; no step writes an argument, so
  each argument ends as launched. The reference is a host program; its frame is its run with the result dropped.
  The ideal pass rewrote nothing, so the ledger is empty.
-/

noncomputable section

namespace Cert.Proof

open Idealize.ShloMosaic Idealize.SL.Sem

/-- The word-level kernel runs and leaves its arguments as launched. -/
theorem frame_k : Cert.frame_Kernel := fun m ρ _ =>
  (θ_run Cert.Kernel.defs _ _).mono (fun _ h c => (h c).2) (Cert.Kernel.Hand.run_val (F := Bits) m ρ)

/-- So does the idealized kernel: the same run read at the extended reals. -/
theorem frame_ki : Cert.frame_KernelIdeal := fun m ρ _ =>
  (θ_run Cert.KernelIdeal.defs _ _).mono (fun _ h c => (h c).2) (Cert.KernelIdeal.Hand.run_val (F := Ideal) m ρ)

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten by the ideal pass. -/
theorem preserves : Cert.preserves_Kernel_KernelIdeal := trivial

end Cert.Proof

end
-- ==== Proof.IdealWriteBack.lean ====
import proofs.«109090_g35089882808761_cont_8to1_b_317_18_alg».proof.Proof.IdealLeaves

/-!
  What the first call writes back, as a whole array.

  The output window's one block is the whole [1024, 4096] array: its block index is (0, 0) at every point and its
  block has the array's sizes, so the rectangle it writes through starts at offset 0 on each axis and spans the whole
  extent, and nothing of the block is cut off. A write through it replaces every element.
-/

set_option maxRecDepth 16384

noncomputable section

namespace Cert.KernelIdeal.Hand

open Idealize.ShloMosaic Idealize.ShloMosaic.TcCoe
open Idealize.SL Idealize.SL.Sem
open Idealize.ShloMosaic.Pipeline (RDat)
open Cert.KernelIdeal Cert.KernelIdeal.Gen

variable {F : FTy → Type} [FloatOps F]

variable (V : (c : Dev nD) → (b : Ref sig .tc) → Buf (Elt F) ((c : Thread nD τ).loc b))

/-- The output block's offsets at the last point are zero on both axes. -/
theorem off0_2_last : (fun a => win0_2.index tlast0 a * main_v0.ty.shape.size a) = fun _ => 0 :=
  funext fun a => by fin_cases a <;> decide +kernel

/-- The array after the first call is the closed form of the accumulation. -/
theorem fin0_2_eq (c : Dev nD) : (fin0_2 V c : S1024x4096.Idx → Elt F .f32) = H0 V c := by
  unfold fin0_2
  exact Memref.write_access_unit_zero_univ (Elt F) main_v0 off0_2_last
    (fun a => by rw [congrFun off0_2_last a]; simp) ((rd0 V c).A 2) (H0 V c)

end Cert.KernelIdeal.Hand

end
-- ==== Proof.LibMatmulNT.lean ====
/-
  A matrix product whose right operand is contracted on its LAST axis, read at an index, over the extended reals.

  For dimension numbers that contract the left operand's axis 1 with the right operand's axis 1, keep axis 0 of each,
  and have no batch axes — `[M, K] · [N, K] → [M, N]`, the product with the transposed right operand in which no
  transpose is ever formed — entry `(p, q)` of the product accumulated into the zero matrix is
  `∑ₖ lhs (p, k) * rhs (q, k)`. The contraction index, a multi-index with one axis, is its one coordinate; at result
  index `(p, q)` and contraction coordinate `k` the left operand is read at `(p, k)` and the right one at `(q, k)`.
-/
import Idealize.ShloMosaic.Lib.ValueIdx
import Idealize.ShloMosaic.PureOps.Ideal.Laws

noncomputable section

open scoped BigOperators

namespace Idealize.ShloMosaic.MatmulNT

open Idealize.ShloMosaic Idealize.ShloMosaic.ValueIdx

/-- A coordinate of an index does not depend on how its axis number is spelt. -/
theorem coord_congr {S : Shape} (j : S.Idx) {a b : Nat} (ha : a < S.rank) (hb : b < S.rank) (h : a = b) :
    (j ⟨a, ha⟩).val = (j ⟨b, hb⟩).val := by subst h; rfl

variable {M K N : Nat} (d : DotDims ⟨2, ![M, K]⟩ ⟨2, ![N, K]⟩ ⟨2, ![M, N]⟩)
  (hlc : d.lhsContracting = [1]) (hrc : d.rhsContracting = [1])
  (hln : d.lhsNonContracting = [0]) (hrn : d.rhsNonContracting = [0])
  (hlb : d.lhsBatch = []) (hrb : d.rhsBatch = [])

include hln hlb in
/-- The left operand's kept axis is the result's axis 0: its coordinate there is the result's row. -/
theorem lhsIdx_kept (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  exact coord_congr j _ _ (by simp [hlb, hln])

include hln hrn hlb hrb in
/-- The right operand's kept axis is the result's axis 1 (it comes after the left operand's one kept axis): its
    coordinate there is the result's column. -/
theorem rhsIdx_kept (j : (⟨2, ![M, N]⟩ : Shape).Idx) (k : d.contr.Idx) : (d.rhsIdx j k 0).val = (j 1).val := by
  have hb : (0 : Fin (⟨2, ![N, K]⟩ : Shape).rank) ∉ d.rhsBatch := by rw [hrb]; exact List.not_mem_nil
  have hn : (0 : Fin (⟨2, ![N, K]⟩ : Shape).rank) ∈ d.rhsNonContracting := by rw [hrn]; exact List.mem_singleton.mpr rfl
  unfold DotDims.rhsIdx
  rw [dif_neg hb, dif_pos hn]
  simp only [Fin.val_cast]
  exact coord_congr j _ _ (by simp [hlb, hln, hrn])

include hlc in
/-- One axis is contracted, -/
theorem contr_rank : d.contr.rank = 1 := by rw [d.rank_contr, hlc]; rfl

include hlc in
/-- and its extent is the operands' shared inner extent. -/
theorem contr_size (h0 : 0 < d.contr.rank) : d.contr.size ⟨0, h0⟩ = K := by
  have h1 : 0 < d.lhsContracting.length := by rw [hlc]; exact Nat.one_pos
  refine (d.size_contr 0 h1).trans ?_
  have e : d.lhsContracting[0] = (1 : Fin (⟨2, ![M, K]⟩ : Shape).rank) := by simp [hlc]
  rw [e]
  rfl

include hlc hrc hln hrn hlb hrb in
/-- ENTRY `(p, q)` OF THE PRODUCT WITH THE TRANSPOSED RIGHT OPERAND, INTO THE ZERO MATRIX: `∑ₖ lhs (p, k) * rhs (q, k)`. -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhsIdx_kept d hln hlb (ix2 p q) _
    | ⟨1, _⟩ => exact (d.lhsIdx_val_of_single (cl := 1) hlc (ix2 p q) _).trans hk)
  have er : d.rhsIdx (ix2 p q) ((contrEquiv1 d K hr hs).symm k) = ix2 q k := funext fun a => Fin.ext (by
    match a with
    | ⟨0, _⟩ => exact rhsIdx_kept d hln hrn hlb hrb (ix2 p q) _
    | ⟨1, _⟩ => exact (d.rhsIdx_val_of_single (cr := 1) hrc (ix2 p q) _).trans hk)
  rw [el, er]

end Idealize.ShloMosaic.MatmulNT
-- ==== Proof.Layer0Value.lean ====
import proofs.«109090_g35089882808761_cont_8to1_b_317_18_alg».proof.Proof.Gen.KernelIdeal.Skeleton
import proofs.«109090_g35089882808761_cont_8to1_b_317_18_alg».proof.Proof.LibMatmulNT
import Idealize.ShloMosaic.Lib.ValueLayout

/-!
  The first region's stored block, read at an index.

  At the grid point with contraction-block number k, the body forms the partial product of a [1024, 2048] block of
  the left operand with the transposed [512, 2048] block of the right one, and stores, into a [1024, 512] block that
  currently holds `cur`, the partial product itself when k = 0 and `cur` plus the partial product otherwise. The
  changes of float format are the identity on extended reals, and the product is accumulated into the zero matrix.
-/

noncomputable section

open scoped BigOperators

namespace Cert.KernelIdeal.Hand

open Cert.KernelIdeal Cert.KernelIdeal.Gen Idealize.ShloMosaic Idealize.ShloMosaic.ValueIdx

/-- The partial product of the two blocks at (p, q): ∑ⱼ left (p, j) · right (q, j). -/
theorem partial_apply (v0 : Vec Ideal S1024x2048 .f32) (v2 : Vec Ideal S512x2048 .f32) (p : Fin 1024) (q : Fin 512) :
    matmul (F := Ideal) dot_S1024x2048_S512x2048_S1024x512_1_1_0_0_n_n none
        (truncf .bf16 v0 bitsLt_bf16_f32) (truncf .bf16 v2 bitsLt_bf16_f32)
        (constant S1024x512 .f32 0x00000000#32) (ix2 p q)
      = ∑ j : Fin 2048, v0 (ix2 p j) * v2 (ix2 q j) :=
  MatmulNT.matmul_zero_apply dot_S1024x2048_S512x2048_S1024x512_1_1_0_0_n_n rfl rfl rfl rfl rfl rfl none
    (truncf .bf16 v0 bitsLt_bf16_f32) (truncf .bf16 v2 bitsLt_bf16_f32) p q

/-- THE STORED BLOCK AT (p, q): the partial product when the contraction-block number is 0, the block's current
    content plus the partial product otherwise. -/
theorem part_apply (i : grid0.Coords) (v0 : Vec Ideal S1024x2048 .f32) (v2 : Vec Ideal S512x2048 .f32)
    (v8 : Vec Ideal S1024x512 .f32) (p : Fin 1024) (q : Fin 512) :
    Gen.k0_pay1 (F := Ideal) i v0 v2 v8 (ix2 p q)
      = if (i 0).val = 0 then ∑ j : Fin 2048, v0 (ix2 p j) * v2 (ix2 q j)
        else v8 (ix2 p q) + ∑ j : Fin 2048, v0 (ix2 p j) * v2 (ix2 q j) := by
  have h8 : (i 0).val < 8 := (i 0).isLt
  unfold Gen.k0_pay1
  rw [shapeCast_self]
  by_cases h0 : (i 0).val = 0
  · have hc : Scalar.cmpi .eq (BitVec.ofNat 32 (i 0).val) 0#32 = 1#1 := by rw [h0]; rfl
    rw [if_pos h0, hc, select_one]
    exact partial_apply v0 v2 p q
  · have hc : Scalar.cmpi .eq (BitVec.ofNat 32 (i 0).val) 0#32 = 0#1 := by
      generalize (i 0).val = n at h8 h0
      interval_cases n
      · exact absurd rfl h0
      all_goals rfl
    rw [if_neg h0, hc, select_zero, addf_apply, partial_apply]

end Cert.KernelIdeal.Hand

end
-- ==== Proof.SumBlocks.lean ====
/-
  Two facts about finite sums in a commutative additive monoid (used at the extended reals).

  A sum over 16384 consecutive indices is the sum over 8 blocks of the sums over the 2048 indices of each block, the
  block k holding the indices 2048·k, …, 2048·k + 2047: only commutativity and associativity of addition are used,
  so nothing is asked of the terms (no finiteness).

  A running total that starts at the first term and adds one further term per step is, after step n, the sum of the
  first n + 1 terms.
-/
import Idealize.ShloMosaic.Lib.ValueIdx

noncomputable section

open scoped BigOperators

namespace Cert.SumBlocks

variable {M : Type*} [AddCommMonoid M]

/-- The index 2048·k + j of block k at position j: pairs (k, j) with k < 8, j < 2048 are the indices below 16384. -/
def blockEquiv : Fin 8 × Fin 2048 ≃ Fin 16384 where
  toFun p := ⟨2048 * p.1.val + p.2.val, by have := p.1.isLt; have := p.2.isLt; omega⟩
  invFun i := (⟨i.val / 2048, by have := i.isLt; omega⟩, ⟨i.val % 2048, Nat.mod_lt _ (by decide)⟩)
  left_inv p := by
    have h1 := p.1.isLt
    have h2 := p.2.isLt
    refine Prod.ext (Fin.ext ?_) (Fin.ext ?_)
    · show (2048 * p.1.val + p.2.val) / 2048 = p.1.val
      omega
    · show (2048 * p.1.val + p.2.val) % 2048 = p.2.val
      omega
  right_inv i := Fin.ext (by
    show 2048 * (i.val / 2048) + i.val % 2048 = i.val
    omega)

/-- ONE SUM OF 16384 TERMS IS 8 BLOCKS OF 2048. -/
theorem sum_blocks (f : Fin 16384 → M) :
    ∑ kk : Fin 16384, f kk
      = ∑ k : Fin 8, ∑ j : Fin 2048, f ⟨2048 * k.val + j.val, by have := k.isLt; have := j.isLt; omega⟩ := by
  rw [← Equiv.sum_comp blockEquiv f, Fintype.sum_prod_type]
  rfl

/-- A running total `acc` with `acc 0 = s 0` and `acc (k + 1) = acc k + s (k + 1)` for the steps k < N is, at every
    n ≤ N, the sum of the terms s 0, …, s n. -/
theorem acc_eq_sum_le (s acc : ℕ → M) (N : ℕ) (h0 : acc 0 = s 0)
    (hs : ∀ k, k < N → acc (k + 1) = acc k + s (k + 1)) :
    ∀ n, n ≤ N → acc n = ∑ k : Fin (n + 1), s k.val := by
  intro n
  induction n with
  | zero =>
    intro _
    rw [h0, Fin.sum_univ_one]
    rfl
  | succ n ih =>
    intro hn
    rw [hs n (by omega), ih (by omega), Fin.sum_univ_castSucc (n := n + 1)]
    rfl

/-- After the eighth step (k = 7) of such a running total: the sum of the eight terms. The recurrence is asked only of
    the steps k < 7. -/
theorem acc7_eq_sum_of_lt (s acc : ℕ → M) (h0 : acc 0 = s 0) (hs : ∀ k, k < 7 → acc (k + 1) = acc k + s (k + 1)) :
    acc 7 = ∑ k : Fin 8, s k.val :=
  acc_eq_sum_le s acc 7 h0 hs 7 le_rfl

/-- The same with the recurrence given at every step. -/
theorem acc7_eq_sum (s acc : ℕ → M) (h0 : acc 0 = s 0) (hs : ∀ k, acc (k + 1) = acc k + s (k + 1)) :
    acc 7 = ∑ k : Fin 8, s k.val :=
  acc7_eq_sum_of_lt s acc h0 fun k _ => hs k

end Cert.SumBlocks

end
-- ==== Proof.Spec.lean ====
/-
  The three-layer perceptron as ONE function of its seven argument arrays, entry by entry, over the extended reals.

  With x : [1024, 16384], W0 : [4096, 16384], b0 : [4096], W1 : [1024, 4096], b1 : [1024], W2 : [256, 1024],
  b2 : [256]:

    acc0 (p, i) = ∑ₖ x (p, k) · W0 (i, k)                        the first layer's product x · W0ᵀ
    h1   (p, i) = max (acc0 (p, i) + b0 i) 0                     first hidden layer
    h2   (p, j) = max ((∑ᵢ h1 (p, i) · W1 (j, i)) + b1 j) 0      second hidden layer
    out  (p, q) = (∑ⱼ h2 (p, j) · W2 (q, j)) + b2 q              the result

  Every sum is a finite sum in the extended reals, every product and sum is written in the order above, and the
  rectifier is the maximum with zero. The coordinates are literal `Fin` types; `G` is `out` as a function of a
  rank-2 index, and `acc0A` is `acc0` likewise.
-/
import Idealize.ShloMosaic.Lib.ValueIdx
import Idealize.ShloMosaic.PureOps.Ideal.Laws

noncomputable section

open scoped BigOperators

namespace Cert.Spec

open Idealize.ShloMosaic Idealize.ShloMosaic.ValueIdx

/-- x : [1024, 16384]. -/
abbrev SX : Shape := ⟨2, ![1024, 16384]⟩
/-- W0 : [4096, 16384]. -/
abbrev SW0 : Shape := ⟨2, ![4096, 16384]⟩
/-- b0 : [4096]. -/
abbrev SB0 : Shape := ⟨1, ![4096]⟩
/-- W1 : [1024, 4096]; also the shape of the first layer's product and of the first hidden layer. -/
abbrev SW1 : Shape := ⟨2, ![1024, 4096]⟩
/-- b1 : [1024]. -/
abbrev SB1 : Shape := ⟨1, ![1024]⟩
/-- W2 : [256, 1024]. -/
abbrev SW2 : Shape := ⟨2, ![256, 1024]⟩
/-- b2 : [256]. -/
abbrev SB2 : Shape := ⟨1, ![256]⟩
/-- The first layer's product and the first hidden layer: [1024, 4096]. -/
abbrev SH1 : Shape := ⟨2, ![1024, 4096]⟩
/-- The second hidden layer: [1024, 1024]. -/
abbrev SH2 : Shape := ⟨2, ![1024, 1024]⟩
/-- The result: [1024, 256]. -/
abbrev SO : Shape := ⟨2, ![1024, 256]⟩

variable (x : SX.Idx → EReal) (w0 : SW0.Idx → EReal) (b0 : SB0.Idx → EReal) (w1 : SW1.Idx → EReal)
  (b1 : SB1.Idx → EReal) (w2 : SW2.Idx → EReal) (b2 : SB2.Idx → EReal)

/-- The first layer's product x · W0ᵀ at (p, i): ∑ₖ x (p, k) · W0 (i, k). -/
def acc0 (p : Fin 1024) (i : Fin 4096) : EReal := ∑ k : Fin 16384, x (ix2 p k) * w0 (ix2 i k)

/-- The first hidden layer at (p, i): the rectified product plus bias. -/
def h1 (p : Fin 1024) (i : Fin 4096) : EReal := max (acc0 x w0 p i + b0 (ix1 i)) 0

/-- The second hidden layer at (p, j). -/
def h2 (p : Fin 1024) (j : Fin 1024) : EReal :=
  max ((∑ i : Fin 4096, h1 x w0 b0 p i * w1 (ix2 j i)) + b1 (ix1 j)) 0

/-- The result at (p, q). -/
def out (p : Fin 1024) (q : Fin 256) : EReal :=
  (∑ j : Fin 1024, h2 x w0 b0 w1 b1 p j * w2 (ix2 q j)) + b2 (ix1 q)

/-- The first layer's product as a function of a rank-2 index of [1024, 4096]. -/
def acc0A : SH1.Idx → EReal := fun j => acc0 x w0 (j 0) (j 1)

/-- THE RESULT as a function of a rank-2 index of [1024, 256]. -/
def G : SO.Idx → EReal := fun o => out x w0 b0 w1 b1 w2 b2 (o 0) (o 1)

/-- The product array at the index with coordinates (p, i). -/
theorem acc0A_apply (p : Fin 1024) (i : Fin 4096) : acc0A x w0 (ix2 p i) = acc0 x w0 p i := rfl

/-- The result array at the index with coordinates (p, q). -/
theorem G_apply (p : Fin 1024) (q : Fin 256) : G x w0 b0 w1 b1 w2 b2 (ix2 p q) = out x w0 b0 w1 b1 w2 b2 p q := rfl

/-- The layers after the first product, from ANY [1024, 4096] array `a` standing for that product: the result at
    (p, q) when `a` is `acc0A x w0`. Unfolds `out`, `h2`, `h1` in one step. -/
theorem out_eq (p : Fin 1024) (q : Fin 256) :
    out x w0 b0 w1 b1 w2 b2 p q
      = (∑ j : Fin 1024, max ((∑ i : Fin 4096, max (acc0A x w0 (ix2 p i) + b0 (ix1 i)) 0 * w1 (ix2 j i)) + b1 (ix1 j)) 0
          * w2 (ix2 q j)) + b2 (ix1 q) := rfl

end Cert.Spec

end
-- ==== Proof.IdealAccumValue.lean ====
import proofs.«109090_g35089882808761_cont_8to1_b_317_18_alg».proof.Proof.IdealAccum
import proofs.«109090_g35089882808761_cont_8to1_b_317_18_alg».proof.Proof.Layer0Value
import proofs.«109090_g35089882808761_cont_8to1_b_317_18_alg».proof.Proof.SumBlocks
import proofs.«109090_g35089882808761_cont_8to1_b_317_18_alg».proof.Proof.Spec

/-!
  The first call's closed form is the first layer's product.

  The point of contraction block k and column block n reads columns 2048·k … of the left argument (all rows) and rows
  512·n …, columns 2048·k … of the right one. At an index (p, q) of column block n the accumulation therefore starts
  at the k = 0 partial product and adds the partial product of block k + 1 at each further step, and after block 7 it
  is the sum of the eight partial products: the sum over all 16384 contraction indices, regrouped in blocks of 2048.
-/

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (RDat)
open Cert.KernelIdeal Cert.KernelIdeal.Gen

variable (V : (c : Dev nD) → (b : Ref sig .tc) → Buf (Elt Ideal) ((c : Thread nD τ).loc b))

/-- The first call's input block indices, decided over its 64 points: the left argument's block is (0, t / 8), the
    right one's (t % 8, t / 8). -/
theorem idx_facts0 : ∀ t : Fin cfg0.N,
    win0_0.index t (0 : Fin 2) = 0 ∧ win0_0.index t (1 : Fin 2) = t.val / 8
    ∧ win0_1.index t (0 : Fin 2) = t.val % 8 ∧ win0_1.index t (1 : Fin 2) = t.val / 8 :=
  (by decide +kernel : ∀ t : Fin grid0.N, _)

/-- The left argument as the call finds it, as a function of a rank-2 index. -/
abbrev argL (c : Dev nD) : S1024x16384.Idx → EReal := V c main_arg0
/-- The right argument as the call finds it. -/
abbrev argR (c : Dev nD) : S4096x16384.Idx → EReal := V c main_arg1
/-- The left argument's block at a point. -/
abbrev blkL (c : Dev nD) (t : Fin cfg0.N) : Vec Ideal S1024x2048 .f32 := iblk0 V c 0 t
/-- The right argument's block at a point. -/
abbrev blkR (c : Dev nD) (t : Fin cfg0.N) : Vec Ideal S512x2048 .f32 := iblk0 V c 1 t

/-- The left block of the point of contraction block k, at (p, j): the left argument at (p, 2048·k + j). -/
theorem iblk0_left_apply (c : Dev nD) (k : ℕ) (hk : k < 8) (n : Fin 8) (p : Fin 1024) (jj : Fin 2048) :
    blkL V c (pt0 k n hk) (ix2 p jj)
      = argL V c (ix2 p (⟨2048 * k + jj.val, by have := jj.isLt; omega⟩ : Fin 16384)) := by
  obtain ⟨e00, e01, e10, e11⟩ := idx_facts0 (pt0 k n hk)
  have hn : n.val < 8 := n.isLt
  have hv : (pt0 k n hk).val = 8 * k + n.val := rfl
  show V c main_arg0 (((cfg0.win 0).blk (pt0 k n hk)).view.emb (ix2 p jj)) = _
  refine congrArg _ (funext fun a => Fin.ext ?_)
  match a with
  | ⟨0, _⟩ =>
    show win0_0.index (pt0 k n hk) (0 : Fin 2) * 1024 + 1 * p.val = p.val
    rw [e00]; omega
  | ⟨1, _⟩ =>
    show win0_0.index (pt0 k n hk) (1 : Fin 2) * 2048 + 1 * jj.val = 2048 * k + jj.val
    rw [e01, hv]; omega

/-- The right block of the point of contraction block k and column block n, at (q, j): the right argument at
    (512·n + q, 2048·k + j). -/
theorem iblk0_right_apply (c : Dev nD) (k : ℕ) (hk : k < 8) (n : Fin 8) (q : Fin 512) (jj : Fin 2048) :
    blkR V c (pt0 k n hk) (ix2 q jj)
      = argR V c (ix2 (⟨512 * n.val + q.val, by have := n.isLt; have := q.isLt; omega⟩ : Fin 4096)
          (⟨2048 * k + jj.val, by have := jj.isLt; omega⟩ : Fin 16384)) := by
  obtain ⟨e00, e01, e10, e11⟩ := idx_facts0 (pt0 k n hk)
  have hn : n.val < 8 := n.isLt
  have hv : (pt0 k n hk).val = 8 * k + n.val := rfl
  show V c main_arg1 (((cfg0.win 1).blk (pt0 k n hk)).view.emb (ix2 q jj)) = _
  refine congrArg _ (funext fun a => Fin.ext ?_)
  match a with
  | ⟨0, _⟩ =>
    show win0_1.index (pt0 k n hk) (0 : Fin 2) * 512 + 1 * q.val = 512 * n.val + q.val
    rw [e10, hv]; omega
  | ⟨1, _⟩ =>
    show win0_1.index (pt0 k n hk) (1 : Fin 2) * 2048 + 1 * jj.val = 2048 * k + jj.val
    rw [e11, hv]; omega

/-- The point of contraction block k and column block n has contraction-block coordinate k. -/
theorem coord0_pt0 (k : ℕ) (hk : k < 8) (n : Fin 8) : ((grid0.coords (pt0 k n hk)) 0).val = k := by
  have hn : n.val < 8 := n.isLt
  rw [(coords0 (pt0 k n hk)).1]
  show (8 * k + n.val) / 8 = k
  omega

/-- The partial product of contraction block k at row p of the left argument and row i of the right one (0 past the
    eighth block). -/
def partialAt (c : Dev nD) (p : Fin 1024) (i : Fin 4096) (k : ℕ) : EReal :=
  if hk : k < 8 then
    ∑ jj : Fin 2048,
      argL V c (ix2 p (⟨2048 * k + jj.val, by have := jj.isLt; omega⟩ : Fin 16384))
        * argR V c (ix2 i (⟨2048 * k + jj.val, by have := jj.isLt; omega⟩ : Fin 16384))
  else 0

/-- The product of the two blocks of the point of contraction block k and column block n at (p, q). -/
theorem blocks_prod (c : Dev nD) (k : ℕ) (hk : k < 8) (n : Fin 8) (p : Fin 1024) (q : Fin 512) :
    (∑ jj : Fin 2048, blkL V c (pt0 k n hk) (ix2 p jj) * blkR V c (pt0 k n hk) (ix2 q jj))
      = partialAt V c p (⟨512 * n.val + q.val, by have := n.isLt; have := q.isLt; omega⟩ : Fin 4096) k := by
  unfold partialAt
  rw [dif_pos hk]
  refine Finset.sum_congr rfl fun jj _ => ?_
  rw [iblk0_left_apply, iblk0_right_apply]

/-- The accumulation starts at the partial product of contraction block 0 … -/
theorem colAcc_zero_apply (c : Dev nD) (n : Fin 8) (p : Fin 1024) (q : Fin 512) :
    colAcc V c n 0 (ix2 p q)
      = partialAt V c p (⟨512 * n.val + q.val, by have := n.isLt; have := q.isLt; omega⟩ : Fin 4096) 0 := by
  rw [colAcc, part_apply, if_pos (coord0_pt0 0 (by omega) n)]
  exact blocks_prod V c 0 (by omega) n p q

/-- … and adds the partial product of the next contraction block at each step. -/
theorem colAcc_succ_apply (c : Dev nD) (n : Fin 8) (k : ℕ) (hk : k + 1 < 8) (p : Fin 1024) (q : Fin 512) :
    colAcc V c n (k + 1) (ix2 p q)
      = colAcc V c n k (ix2 p q)
        + partialAt V c p (⟨512 * n.val + q.val, by have := n.isLt; have := q.isLt; omega⟩ : Fin 4096) (k + 1) := by
  conv_lhs => rw [colAcc]
  rw [dif_pos hk, part_apply, if_neg (by rw [coord0_pt0 (k + 1) hk n]; omega)]
  exact congrArg (colAcc V c n k (ix2 p q) + ·) (blocks_prod V c (k + 1) hk n p q)

/-- After contraction block 7 the accumulation is the sum of the eight partial products. -/
theorem colAcc7_apply (c : Dev nD) (n : Fin 8) (p : Fin 1024) (q : Fin 512) :
    colAcc V c n 7 (ix2 p q)
      = ∑ k : Fin 8,
          partialAt V c p (⟨512 * n.val + q.val, by have := n.isLt; have := q.isLt; omega⟩ : Fin 4096) k.val :=
  Cert.SumBlocks.acc7_eq_sum_of_lt
    (partialAt V c p (⟨512 * n.val + q.val, by have := n.isLt; have := q.isLt; omega⟩ : Fin 4096))
    (fun k => colAcc V c n k (ix2 p q)) (colAcc_zero_apply V c n p q)
    (fun k hk => colAcc_succ_apply V c n k (by omega) p q)

/-- THE FIRST CALL'S CLOSED FORM IS THE FIRST LAYER'S PRODUCT of the two arguments. -/
theorem H0_eq (c : Dev nD) :
    H0 (F := Ideal) V c
      = Cert.Spec.acc0A (argL V c) (argR V c) := by
  funext y
  obtain ⟨p, i, rfl⟩ : ∃ (p : Fin 1024) (i : Fin 4096), y = ix2 p i := ⟨y 0, y 1, eq_ix2 y⟩
  have hi : i.val < 4096 := i.isLt
  rw [Cert.Spec.acc0A_apply]
  unfold H0
  have hl : loc0 (ix2 p i) = ix2 p (⟨i.val % 512, Nat.mod_lt _ (by decide)⟩ : Fin 512) := rfl
  rw [hl, colAcc7_apply]
  have hrow : (⟨512 * (colOf (ix2 p i)).val + (⟨i.val % 512, Nat.mod_lt _ (by decide)⟩ : Fin 512).val,
      by have := (colOf (ix2 p i)).isLt; omega⟩ : Fin 4096) = i :=
    Fin.ext (by show 512 * (i.val / 512) + i.val % 512 = i.val; omega)
  rw [hrow]
  unfold Cert.Spec.acc0
  rw [Cert.SumBlocks.sum_blocks]
  refine Finset.sum_congr rfl fun k _ => ?_
  unfold partialAt
  rw [dif_pos k.isLt]

end Cert.KernelIdeal.Hand

end
-- ==== Proof.TailValue.lean ====
import proofs.«109090_g35089882808761_cont_8to1_b_317_18_alg».proof.Proof.Gen.KernelIdeal.Skeleton
import proofs.«109090_g35089882808761_cont_8to1_b_317_18_alg».proof.Proof.LibMatmulNT
import Idealize.ShloMosaic.Lib.ValueLayout

/-!
  The second region's stored block, read at an index.

  From a [256, 4096] block `h` of the first layer's product and the bias rows and weights, the body forms
  max (h + b0) 0, its product with the transposed [1024, 4096] weights plus b1, the maximum of that with 0, its product
  with the transposed [256, 1024] weights, plus b2. Each bias is a [1, n] row repeated down the rows; the changes of
  float format and the same-shape casts are the identity; each product is accumulated into the zero matrix; the zero
  the rectifier compares with is the extended real 0.
-/

noncomputable section

open scoped BigOperators

namespace Cert.KernelIdeal.Hand

open Cert.KernelIdeal Cert.KernelIdeal.Gen Idealize.ShloMosaic Idealize.ShloMosaic.ValueIdx

/-- The second layer's product of a [256, 4096] block with the transposed [1024, 4096] weights at (p, j). -/
theorem prod1_apply (a : FVec Ideal S256x4096 .bf16) (w : FVec Ideal S1024x4096 .bf16) (p : Fin 256) (j : Fin 1024) :
    matmul (F := Ideal) dot_S256x4096_S1024x4096_S256x1024_1_1_0_0_n_n none a w
        (constant S256x1024 .f32 0x00000000#32) (ix2 p j)
      = ∑ i : Fin 4096, a (ix2 p i) * w (ix2 j i) :=
  MatmulNT.matmul_zero_apply dot_S256x4096_S1024x4096_S256x1024_1_1_0_0_n_n rfl rfl rfl rfl rfl rfl none a w p j

/-- The third layer's product of a [256, 1024] block with the transposed [256, 1024] weights at (p, q). -/
theorem prod2_apply (a : FVec Ideal S256x1024 .bf16) (w : FVec Ideal S256x1024 .bf16) (p : Fin 256) (q : Fin 256) :
    matmul (F := Ideal) dot_S256x1024_S256x1024_S256x256_1_1_0_0_n_n none a w
        (constant S256x256 .f32 0x00000000#32) (ix2 p q)
      = ∑ j : Fin 1024, a (ix2 p j) * w (ix2 q j) :=
  MatmulNT.matmul_zero_apply dot_S256x1024_S256x1024_S256x256_1_1_0_0_n_n rfl rfl rfl rfl rfl rfl none a w p q

/-- THE STORED BLOCK AT (p, q), as nested sums over the two hidden widths. -/
theorem tail_apply (h : Vec Ideal S256x4096 .f32) (b0r : Vec Ideal S1x4096 .f32) (w1 : Vec Ideal S1024x4096 .bf16)
    (b1r : Vec Ideal S1x1024 .f32) (w2 : Vec Ideal S256x1024 .bf16) (b2r : Vec Ideal S1x256 .f32) (p q : Fin 256) :
    Gen.k1_pay1 (F := Ideal) h b0r w1 b1r w2 b2r (ix2 p q)
      = (∑ j : Fin 1024, max ((∑ i : Fin 4096, max (h (ix2 p i) + b0r (ix2 0 i)) 0 * w1 (ix2 j i)) + b1r (ix2 0 j)) 0
          * w2 (ix2 q j)) + b2r (ix2 0 q) := by
  unfold Gen.k1_pay1
  simp only [shapeCast_self]
  rw [addf_apply, prod2_apply, broadcastTo_1b_ab_apply]
  have hz : FloatOps.ofBits (F := Ideal) .f32 0x00000000#32 = (0 : EReal) := Ideal.ofBits_zero_f32
  have h1 : ∀ i : Fin 4096,
      (truncf .bf16 (maximumf (addf h (broadcastTo S256x4096 b0r broadcasts_S1x4096_S256x4096))
        (broadcast S256x4096 (FloatOps.ofBits (F := Ideal) .f32 0x00000000#32))) bitsLt_bf16_f32
          : FVec Ideal S256x4096 .bf16) (ix2 p i)
        = max (h (ix2 p i) + b0r (ix2 0 i)) 0 := fun i => by
    rw [truncf_apply, maximumf_apply, addf_apply, broadcastTo_1b_ab_apply, broadcast_apply, hz]
  congr 1
  refine Finset.sum_congr rfl fun j _ => ?_
  rw [truncf_apply, maximumf_apply, addf_apply, prod1_apply, broadcastTo_1b_ab_apply, broadcast_apply]
  simp only [h1]
  rw [hz]

end Cert.KernelIdeal.Hand

end
-- ==== Proof.IdealTailValue.lean ====
import proofs.«109090_g35089882808761_cont_8to1_b_317_18_alg».proof.Proof.IdealRegion1
import proofs.«109090_g35089882808761_cont_8to1_b_317_18_alg».proof.Proof.TailValue
import proofs.«109090_g35089882808761_cont_8to1_b_317_18_alg».proof.Proof.Spec
import Idealize.ShloMosaic.Lib.Pipeline.Value

/-!
  The second call's result array is the specification.

  Point t of its four points reads rows 256·t, …, 256·t + 255 of the first layer's product and the whole of the
  weights and bias rows, and writes rows 256·t, …, 256·t + 255 of the result through the whole of its block. With the
  product array holding the first layer's product, the weight arrays the weights and the bias rows the biases, what
  point t writes back is its block of the specification; the four blocks cover the rows, row r lying in block r / 256.
-/

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-- The stored block of row block r at a position j, when the block read is rows 256·r … of the first layer's product,
    the bias rows hold the biases and the weights are the weights: the specification at row 256·r + (row of j) and the
    column of j. -/
theorem tail_at (x : Cert.Spec.SX.Idx → EReal) (w0 : Cert.Spec.SW0.Idx → EReal) (b0 : Cert.Spec.SB0.Idx → EReal)
    (w1 : Cert.Spec.SW1.Idx → EReal) (b1 : Cert.Spec.SB1.Idx → EReal) (w2 : Cert.Spec.SW2.Idx → EReal)
    (b2 : Cert.Spec.SB2.Idx → EReal) (r : ℕ) (hr : r < 4)
    (h : Vec Ideal S256x4096 .f32) (b0r : Vec Ideal S1x4096 .f32) (w1v : Vec Ideal S1024x4096 .bf16)
    (b1r : Vec Ideal S1x1024 .f32) (w2v : Vec Ideal S256x1024 .bf16) (b2r : Vec Ideal S1x256 .f32)
    (hh : ∀ (p : Fin 256) (i : Fin 4096),
      h (ix2 p i) = Cert.Spec.acc0A x w0 (ix2 (⟨256 * r + p.val, by have := p.isLt; omega⟩ : Fin 1024) i))
    (hb0 : ∀ i : Fin 4096, b0r (ix2 0 i) = b0 (ix1 i))
    (hw1 : ∀ (j : Fin 1024) (i : Fin 4096), w1v (ix2 j i) = w1 (ix2 j i))
    (hb1 : ∀ j : Fin 1024, b1r (ix2 0 j) = b1 (ix1 j))
    (hw2 : ∀ (q : Fin 256) (j : Fin 1024), w2v (ix2 q j) = w2 (ix2 q j))
    (hb2 : ∀ q : Fin 256, b2r (ix2 0 q) = b2 (ix1 q))
    (j : S256x256.Idx) (o : Cert.Spec.SO.Idx) (ho0 : (o 0).val = 256 * r + (j 0).val) (ho1 : (o 1).val = (j 1).val) :
    k1_pay1 (F := Ideal) h b0r w1v b1r w2v b2r j = Cert.Spec.G x w0 b0 w1 b1 w2 b2 o := by
  obtain ⟨p, q, rfl⟩ : ∃ (p q : Fin 256), j = ix2 p q := ⟨j 0, j 1, eq_ix2 j⟩
  have ho : o = ix2 (⟨256 * r + p.val, by have := p.isLt; omega⟩ : Fin 1024) q := by
    funext a
    apply Fin.ext
    match a with
    | ⟨0, _⟩ => exact ho0
    | ⟨1, _⟩ => exact ho1
  rw [ho, Cert.Spec.G_apply, tail_apply, Cert.Spec.out_eq]
  simp only [hh, hb0, hw1, hb1, hw2, hb2]

variable (V : (c : Dev nD) → (b : Ref sig .tc) → Buf (Elt Ideal) ((c : Thread nD τ).loc b))

/-- The second call's block indices, decided over its four points: the row-blocked windows are at block t, the others
    at block 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

section
variable (c : Dev nD) (x : Cert.Spec.SX.Idx → EReal) (w0 : Cert.Spec.SW0.Idx → EReal)
    (b0 : Cert.Spec.SB0.Idx → EReal) (w1 : Cert.Spec.SW1.Idx → EReal) (b1 : Cert.Spec.SB1.Idx → EReal)
    (w2 : Cert.Spec.SW2.Idx → EReal) (b2 : Cert.Spec.SB2.Idx → EReal)
    (h0 : (V c main_v0 : S1024x4096.Idx → EReal) = Cert.Spec.acc0A x w0)
    (h1 : (V c main_v1 : S1024x4096.Idx → EReal) = w1)
    (h2 : (V c main_v2 : S256x1024.Idx → EReal) = w2)
    (h3 : ∀ i : Fin 4096, (V c main_v3 : S1x4096.Idx → EReal) (ix2 0 i) = b0 (ix1 i))
    (h4 : ∀ j : Fin 1024, (V c main_v4 : S1x1024.Idx → EReal) (ix2 0 j) = b1 (ix1 j))
    (h5 : ∀ q : Fin 256, (V c main_v5 : S1x256.Idx → EReal) (ix2 0 q) = b2 (ix1 q))

include h0 h1 h2 h3 h4 h5 in
/-- What point t writes back is its block of the specification. -/
theorem flushed6_eq (t : Fin cfg1.N) :
    (dat1 (F := Ideal) V c).flushed 6 t
      = ((cfg1.win 6).blk t).view.read (Elt Ideal) (Cert.Spec.G x w0 b0 w1 b1 w2 b2) := by
  show (cfg1.win 6).cut (grid1.coords t) ((dat1 V c).after 6 t) = _
  rw [after1_6]
  obtain ⟨e00, e01, e10, e11, e20, e21, e30, e31, e40, e41, e50, e51, e60, e61⟩ := idx_facts1 t
  have ht4 : t.val < 4 := lt_of_lt_of_eq t.isLt N_1
  funext j
  show k1_pay1 (F := Ideal) (iblk1 V c 0 t) (iblk1 V c 3 t) (iblk1 V c 1 t) (iblk1 V c 4 t) (iblk1 V c 2 t) (iblk1 V c 5 t) j
    = Cert.Spec.G x w0 b0 w1 b1 w2 b2 (((cfg1.win 6).blk t).view.emb j)
  refine tail_at x w0 b0 w1 b1 w2 b2 t.val ht4 _ _ _ _ _ _ ?_ ?_ ?_ ?_ ?_ ?_ j _ ?_ ?_
  · intro p i
    show V c main_v0 (((cfg1.win 0).blk t).view.emb (ix2 p i)) = _
    rw [h0]
    refine congrArg _ (funext fun a => Fin.ext ?_)
    match a with
    | ⟨0, _⟩ => show win1_0.index t (0 : Fin 2) * 256 + 1 * p.val = 256 * t.val + p.val; rw [e00]; omega
    | ⟨1, _⟩ => show win1_0.index t (1 : Fin 2) * 4096 + 1 * i.val = i.val; rw [e01]; omega
  · intro i
    show V c main_v3 (((cfg1.win 3).blk t).view.emb (ix2 0 i)) = _
    rw [← h3 i]
    refine congrArg _ (funext fun a => Fin.ext ?_)
    match a with
    | ⟨0, _⟩ => show win1_3.index t (0 : Fin 2) * 1 + 1 * 0 = 0; rw [e30]
    | ⟨1, _⟩ => show win1_3.index t (1 : Fin 2) * 4096 + 1 * i.val = i.val; rw [e31]; omega
  · intro j' i
    show V c main_v1 (((cfg1.win 1).blk t).view.emb (ix2 j' i)) = _
    rw [h1]
    refine congrArg _ (funext fun a => Fin.ext ?_)
    match a with
    | ⟨0, _⟩ => show win1_1.index t (0 : Fin 2) * 1024 + 1 * j'.val = j'.val; rw [e10]; omega
    | ⟨1, _⟩ => show win1_1.index t (1 : Fin 2) * 4096 + 1 * i.val = i.val; rw [e11]; omega
  · intro j'
    show V c main_v4 (((cfg1.win 4).blk t).view.emb (ix2 0 j')) = _
    rw [← h4 j']
    refine congrArg _ (funext fun a => Fin.ext ?_)
    match a with
    | ⟨0, _⟩ => show win1_4.index t (0 : Fin 2) * 1 + 1 * 0 = 0; rw [e40]
    | ⟨1, _⟩ => show win1_4.index t (1 : Fin 2) * 1024 + 1 * j'.val = j'.val; rw [e41]; omega
  · intro q j'
    show V c main_v2 (((cfg1.win 2).blk t).view.emb (ix2 q j')) = _
    rw [h2]
    refine congrArg _ (funext fun a => Fin.ext ?_)
    match a with
    | ⟨0, _⟩ => show win1_2.index t (0 : Fin 2) * 256 + 1 * q.val = q.val; rw [e20]; omega
    | ⟨1, _⟩ => show win1_2.index t (1 : Fin 2) * 1024 + 1 * j'.val = j'.val; rw [e21]; omega
  · intro q
    show V c main_v5 (((cfg1.win 5).blk t).view.emb (ix2 0 q)) = _
    rw [← h5 q]
    refine congrArg _ (funext fun a => Fin.ext ?_)
    match a with
    | ⟨0, _⟩ => show win1_5.index t (0 : Fin 2) * 1 + 1 * 0 = 0; rw [e50]
    | ⟨1, _⟩ => show win1_5.index t (1 : Fin 2) * 256 + 1 * q.val = q.val; rw [e51]; omega
  · show win1_6.index t (0 : Fin 2) * 256 + 1 * (j 0).val = 256 * t.val + (j 0).val
    rw [e60]; omega
  · show win1_6.index t (1 : Fin 2) * 256 + 1 * (j 1).val = (j 1).val
    rw [e61]; omega

/-- Every index of the result lies in the block of the point numbered by its row block. -/
theorem cover6 (i : S1024x256.Idx) :
    ∃ t : Fin cfg1.N, (cfg1.win 6).flush t = true ∧ i ∈ ((cfg1.win 6).blk t).view.set := by
  have hi0 : (i 0).val < 1024 := (i 0).isLt
  have hi1 : (i 1).val < 256 := (i 1).isLt
  let t : Fin cfg1.N := ⟨(i 0).val / 256, by rw [show cfg1.N = 4 from N_1]; omega⟩
  obtain ⟨e00, e01, e10, e11, e20, e21, e30, e31, e40, e41, e50, e51, e60, e61⟩ := idx_facts1 t
  refine ⟨t, flush1_6 t, ?_⟩
  show i ∈ ((View.whole main_v6).slice (win1_6.rect t)).set
  rw [View.set_slice_whole, Rect.mem_set_unit]
  intro a
  match a with
  | ⟨0, _⟩ =>
    show win1_6.index t (0 : Fin 2) * 256 ≤ (i 0).val ∧ (i 0).val < win1_6.index t (0 : Fin 2) * 256 + 256
    rw [e60]
    show (i 0).val / 256 * 256 ≤ (i 0).val ∧ (i 0).val < (i 0).val / 256 * 256 + 256
    omega
  | ⟨1, _⟩ =>
    show win1_6.index t (1 : Fin 2) * 256 ≤ (i 1).val ∧ (i 1).val < win1_6.index t (1 : Fin 2) * 256 + 256
    rw [e61]
    omega

include h0 h1 h2 h3 h4 h5 in
/-- THE SECOND CALL'S RESULT ARRAY IS THE SPECIFICATION. -/
theorem arr6_eq : (dat1 (F := Ideal) V c).arrAt 6 cfg1.N = Cert.Spec.G x w0 b0 w1 b1 w2 b2 :=
  (dat1 V c).arrAt_eq_of_cover 6 (Cert.Spec.G x w0 b0 w1 b1 w2 b2)
    (fun t _ => flushed6_eq V c x w0 b0 w1 b1 w2 b2 h0 h1 h2 h3 h4 h5 t) cover6

end

end Cert.KernelIdeal.Hand

end
-- ==== Proof.IdealFinal.lean ====
import proofs.«109090_g35089882808761_cont_8to1_b_317_18_alg».proof.Proof.IdealRun
import proofs.«109090_g35089882808761_cont_8to1_b_317_18_alg».proof.Proof.IdealWriteBack
import proofs.«109090_g35089882808761_cont_8to1_b_317_18_alg».proof.Proof.IdealAccumValue
import proofs.«109090_g35089882808761_cont_8to1_b_317_18_alg».proof.Proof.IdealTailValue
import proofs.«109090_g35089882808761_cont_8to1_b_317_18_alg».proof.Proof.Spec
import Idealize.ShloMosaic.Lib.ValueLayout

/-!
  The result array after the whole run is the specification of the seven launched arguments.

  Where the second call is entered, the product array holds what the first call wrote back (no host operation between
  the calls writes it): the closed form of the accumulation, which is the first layer's product of the two launched
  arguments. The two weight arrays hold the launched weights (a change of float format is the identity on extended
  reals), and each bias row [1, n] holds, at (0, i), the launched bias at i (a reshape that adds a leading unit axis).
-/

set_option maxRecDepth 16384

noncomputable section

namespace Cert.KernelIdeal.Hand

open Idealize.ShloMosaic Idealize.ShloMosaic.TcCoe Idealize.ShloMosaic.Tactic Idealize.ShloMosaic.ValueIdx
open Idealize.ShloMosaic.StableHlo
open Idealize.SL Idealize.SL.Sem
open Idealize.ShloMosaic.Pipeline (Dat RDat)
open Cert.KernelIdeal Cert.KernelIdeal.Gen

variable (m : (ℓ : Loc nD τ sig) → Buf (Elt Ideal) ℓ) (ρ : Dev nD → PrngReg)

/-! ## The launched arguments after the first call -/

/-- An argument that is no array of the first call is, after it, as launched. -/
theorem W1_arg2 (c : Dev nD) : W1 m ρ c (Proc.devRef .tc main_arg2) = m ((c.tc : Thread nD τ).loc main_arg2) :=
  (W1_of_ne m ρ c main_arg2 (by decide)).trans rfl
theorem W1_arg3 (c : Dev nD) : W1 m ρ c (Proc.devRef .tc main_arg3) = m ((c.tc : Thread nD τ).loc main_arg3) :=
  (W1_of_ne m ρ c main_arg3 (by decide)).trans rfl
theorem W1_arg4 (c : Dev nD) : W1 m ρ c (Proc.devRef .tc main_arg4) = m ((c.tc : Thread nD τ).loc main_arg4) :=
  (W1_of_ne m ρ c main_arg4 (by decide)).trans rfl
theorem W1_arg5 (c : Dev nD) : W1 m ρ c (Proc.devRef .tc main_arg5) = m ((c.tc : Thread nD τ).loc main_arg5) :=
  (W1_of_ne m ρ c main_arg5 (by decide)).trans rfl
theorem W1_arg6 (c : Dev nD) : W1 m ρ c (Proc.devRef .tc main_arg6) = m ((c.tc : Thread nD τ).loc main_arg6) :=
  (W1_of_ne m ρ c main_arg6 (by decide)).trans rfl

/-! ## The second call's six input arrays where it is entered -/

/-- The product array: what the first call wrote back, the first layer's product of the two launched arguments. -/
theorem V2_v0 (c : Dev nD) :
    (V2 m ρ c main_v0 : S1024x4096.Idx → EReal)
      = Cert.Spec.acc0A (m ((c.tc : Thread nD τ).loc main_arg0)) (m ((c.tc : Thread nD τ).loc main_arg1)) := by
  have e1 : W2 m ρ c (Proc.devRef .tc main_v0) = W1 m ρ c (Proc.devRef .tc main_v0) :=
    StableHlo.after_of_forall_not_mem (b := Proc.devRef .tc main_v0) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide)))
  have e2 : W1 m ρ c (Proc.devRef .tc main_v0) = fin0_2 (V0 m ρ) c := (W1_arr m ρ c 2).trans rfl
  show W2 m ρ c (Proc.devRef .tc main_v0) = _
  rw [e1, e2]
  exact (fin0_2_eq (V0 m ρ) c).trans (H0_eq (V0 m ρ) c)

/-- The second layer's weights: the launched ones (the change of float format is the identity). -/
theorem V2_v1 (c : Dev nD) :
    (V2 m ρ c main_v1 : S1024x4096.Idx → EReal) = (m ((c.tc : Thread nD τ).loc main_arg3) : S1024x4096.Idx → EReal) := by
  show StableHlo.after hostOps1 (W1 m ρ c) (Proc.devRef .tc main_v1) = _
  after_results
  rw [W1_arg3]
  rfl

/-- The third layer's weights likewise. -/
theorem V2_v2 (c : Dev nD) :
    (V2 m ρ c main_v2 : S256x1024.Idx → EReal) = (m ((c.tc : Thread nD τ).loc main_arg5) : S256x1024.Idx → EReal) := by
  show StableHlo.after hostOps1 (W1 m ρ c) (Proc.devRef .tc main_v2) = _
  after_results
  rw [W1_arg5]
  rfl

/-- The first bias row at (0, i): the launched bias at i. -/
theorem V2_v3 (c : Dev nD) (i : Fin 4096) :
    (V2 m ρ c main_v3 : S1x4096.Idx → EReal) (ix2 0 i)
      = (m ((c.tc : Thread nD τ).loc main_arg2) : S4096.Idx → EReal) (ix1 i) := by
  have e : V2 m ρ c main_v3 = shapeCast S1x4096 (m ((c.tc : Thread nD τ).loc main_arg2)) shapeCasts_S4096_S1x4096 := by
    show StableHlo.after hostOps1 (W1 m ρ c) (Proc.devRef .tc main_v3) = _
    after_results
    rw [W1_arg2]
    rfl
  rw [e]
  exact shapeCast_a_1a_apply _ _ 0 i

/-- The second bias row at (0, j). -/
theorem V2_v4 (c : Dev nD) (j : Fin 1024) :
    (V2 m ρ c main_v4 : S1x1024.Idx → EReal) (ix2 0 j)
      = (m ((c.tc : Thread nD τ).loc main_arg4) : S1024.Idx → EReal) (ix1 j) := by
  have e : V2 m ρ c main_v4 = shapeCast S1x1024 (m ((c.tc : Thread nD τ).loc main_arg4)) shapeCasts_S1024_S1x1024 := by
    show StableHlo.after hostOps1 (W1 m ρ c) (Proc.devRef .tc main_v4) = _
    after_results
    rw [W1_arg4]
    rfl
  rw [e]
  exact shapeCast_a_1a_apply _ _ 0 j

/-- The third bias row at (0, q). -/
theorem V2_v5 (c : Dev nD) (q : Fin 256) :
    (V2 m ρ c main_v5 : S1x256.Idx → EReal) (ix2 0 q)
      = (m ((c.tc : Thread nD τ).loc main_arg6) : S256.Idx → EReal) (ix1 q) := by
  have e : V2 m ρ c main_v5 = shapeCast S1x256 (m ((c.tc : Thread nD τ).loc main_arg6)) shapeCasts_S256_S1x256 := by
    show StableHlo.after hostOps1 (W1 m ρ c) (Proc.devRef .tc main_v5) = _
    after_results
    rw [W1_arg6]
    rfl
  rw [e]
  exact shapeCast_a_1a_apply _ _ 0 q

/-! ## The result -/

/-- THE RESULT ARRAY AFTER THE RUN IS THE SPECIFICATION of the seven launched arguments. -/
theorem final_value (c : Dev nD) :
    (dat1 (F := Ideal) (V2 m ρ) c).arrAt 6 cfg1.N
      = Cert.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  arr6_eq (V2 m ρ) c _ _ _ _ _ _ _ (V2_v0 m ρ c) (V2_v1 m ρ c) (V2_v2 m ρ c) (V2_v3 m ρ c) (V2_v4 m ρ c) (V2_v5 m ρ c)

end Cert.KernelIdeal.Hand

end
-- ==== Proof.RefValue.lean ====
import proofs.«109090_g35089882808761_cont_8to1_b_317_18_alg».proof.Proof.Gen.ReferenceIdeal.Read
import proofs.«109090_g35089882808761_cont_8to1_b_317_18_alg».proof.Proof.Spec

/-!
  The reference's value, read index by index: the composed term that the reference's run states for its result is
  the specification `Cert.Spec.G` of the seven argument arrays.

  Layer by layer: a transposed weight array read at (k, i) is the weight at (i, k), so each `dot_general` entry is the
  sum over the shared axis of left (p, k) times weight (i, k); a bias broadcast to a row and then down the rows reads
  the bias at the column; the rectifier's broadcast zero constant is the extended real 0.
-/

noncomputable section

open scoped BigOperators

namespace Cert.RefValue

open Cert.ReferenceIdeal Cert.ReferenceIdeal.Read Idealize.ShloMosaic Idealize.ShloMosaic.ValueIdx

variable (x0 : (⟨S1024x16384, .f32⟩ : BufTy).Contents (Elt Ideal)) (x1 : (⟨S4096x16384, .f32⟩ : BufTy).Contents (Elt Ideal))
  (x2 : (⟨S4096, .f32⟩ : BufTy).Contents (Elt Ideal)) (x3 : (⟨S1024x4096, .f32⟩ : BufTy).Contents (Elt Ideal))
  (x4 : (⟨S1024, .f32⟩ : BufTy).Contents (Elt Ideal)) (x5 : (⟨S256x1024, .f32⟩ : BufTy).Contents (Elt Ideal))
  (x6 : (⟨S256, .f32⟩ : BufTy).Contents (Elt Ideal))

/-! ## The first layer -/

/-- The first product x · W0ᵀ at (p, i). -/
theorem v1_apply (p : Fin 1024) (i : Fin 4096) :
    val_main_v1 (F := Ideal) x0 x1 (ix2 p i) = Cert.Spec.acc0 x0 x1 p i := by
  rw [val_main_v1_apply]
  unfold Cert.Spec.acc0
  refine Finset.sum_congr rfl fun k _ => ?_
  rw [val_main_v0_apply]
  have e1 : lidx_main_v1 (ix2 p i) k = ix2 p k := funext fun a => Fin.ext (by
    match a with
    | ⟨0, _⟩ => rfl
    | ⟨1, _⟩ => rfl)
  have e2 : idx_main_v0 (ridx_main_v1 (ix2 p i) k) = ix2 i k := funext fun a => Fin.ext (by
    match a with
    | ⟨0, _⟩ => rfl
    | ⟨1, _⟩ => rfl)
  rw [e1, e2]

/-- The first bias, laid out as a row and repeated down the rows, at (p, i): the bias at i. -/
theorem v3_apply (p : Fin 1024) (i : Fin 4096) : val_main_v3 (F := Ideal) x2 (ix2 p i) = x2 (ix1 i) := by
  rw [val_main_v3_apply, val_main_v2_apply]
  have e : idx_main_v2 (idx_main_v3 (ix2 p i)) = ix1 i := funext fun a => Fin.ext (by
    match a with
    | ⟨0, _⟩ => rfl)
  rw [e]

/-- The first rectifier's zero array is 0 everywhere. -/
theorem call0_v0_apply (j : S1024x4096.Idx) : val_main_call0_v0 (F := Ideal) j = 0 := by
  rw [val_main_call0_v0_apply, val_main_call0_cst_apply]
  exact Ideal.ofBits_zero_f32

/-- The first hidden layer at (p, i). -/
theorem v5_apply (p : Fin 1024) (i : Fin 4096) :
    val_main_v5 (F := Ideal) x0 x1 x2 (ix2 p i) = Cert.Spec.h1 x0 x1 x2 p i := by
  rw [val_main_v5_apply, val_main_v4_apply, v1_apply, v3_apply, call0_v0_apply]
  rfl

/-! ## The second layer -/

/-- The second product h1 · W1ᵀ at (p, j). -/
theorem v7_apply (p : Fin 1024) (j : Fin 1024) :
    val_main_v7 (F := Ideal) x0 x1 x2 x3 (ix2 p j) = ∑ i : Fin 4096, Cert.Spec.h1 x0 x1 x2 p i * x3 (ix2 j i) := by
  rw [val_main_v7_apply]
  refine Finset.sum_congr rfl fun k _ => ?_
  rw [val_main_v6_apply]
  have e1 : lidx_main_v7 (ix2 p j) k = ix2 p k := funext fun a => Fin.ext (by
    match a with
    | ⟨0, _⟩ => rfl
    | ⟨1, _⟩ => rfl)
  have e2 : idx_main_v6 (ridx_main_v7 (ix2 p j) k) = ix2 j k := funext fun a => Fin.ext (by
    match a with
    | ⟨0, _⟩ => rfl
    | ⟨1, _⟩ => rfl)
  rw [e1, e2, v5_apply]

/-- The second bias, laid out as a row and repeated down the rows, at (p, j): the bias at j. -/
theorem v9_apply (p : Fin 1024) (j : Fin 1024) : val_main_v9 (F := Ideal) x4 (ix2 p j) = x4 (ix1 j) := by
  rw [val_main_v9_apply, val_main_v8_apply]
  have e : idx_main_v8 (idx_main_v9 (ix2 p j)) = ix1 j := funext fun a => Fin.ext (by
    match a with
    | ⟨0, _⟩ => rfl)
  rw [e]

/-- The second rectifier's zero array is 0 everywhere. -/
theorem call1_v0_apply (j : S1024x1024.Idx) : val_main_call1_v0 (F := Ideal) j = 0 := by
  rw [val_main_call1_v0_apply, val_main_call1_cst_apply]
  exact Ideal.ofBits_zero_f32

/-- The second hidden layer at (p, j). -/
theorem v11_apply (p : Fin 1024) (j : Fin 1024) :
    val_main_v11 (F := Ideal) x0 x1 x2 x3 x4 (ix2 p j) = Cert.Spec.h2 x0 x1 x2 x3 x4 p j := by
  rw [val_main_v11_apply, val_main_v10_apply, v7_apply, v9_apply, call1_v0_apply]
  rfl

/-! ## The third layer -/

/-- The third product h2 · W2ᵀ at (p, q). -/
theorem v13_apply (p : Fin 1024) (q : Fin 256) :
    val_main_v13 (F := Ideal) x0 x1 x2 x3 x4 x5 (ix2 p q)
      = ∑ j : Fin 1024, Cert.Spec.h2 x0 x1 x2 x3 x4 p j * x5 (ix2 q j) := by
  rw [val_main_v13_apply]
  refine Finset.sum_congr rfl fun k _ => ?_
  rw [val_main_v12_apply]
  have e1 : lidx_main_v13 (ix2 p q) k = ix2 p k := funext fun a => Fin.ext (by
    match a with
    | ⟨0, _⟩ => rfl
    | ⟨1, _⟩ => rfl)
  have e2 : idx_main_v12 (ridx_main_v13 (ix2 p q) k) = ix2 q k := funext fun a => Fin.ext (by
    match a with
    | ⟨0, _⟩ => rfl
    | ⟨1, _⟩ => rfl)
  rw [e1, e2, v11_apply]

/-- The third bias, laid out as a row and repeated down the rows, at (p, q): the bias at q. -/
theorem v15_apply (p : Fin 1024) (q : Fin 256) : val_main_v15 (F := Ideal) x6 (ix2 p q) = x6 (ix1 q) := by
  rw [val_main_v15_apply, val_main_v14_apply]
  have e : idx_main_v14 (idx_main_v15 (ix2 p q)) = ix1 q := funext fun a => Fin.ext (by
    match a with
    | ⟨0, _⟩ => rfl)
  rw [e]

/-- The result at (p, q). -/
theorem v16_apply (p : Fin 1024) (q : Fin 256) :
    val_main_v16 (F := Ideal) x0 x1 x2 x3 x4 x5 x6 (ix2 p q) = Cert.Spec.out x0 x1 x2 x3 x4 x5 x6 p q := by
  rw [val_main_v16_apply, v13_apply, v15_apply]
  rfl

/-- THE REFERENCE'S RESULT IS THE SPECIFICATION, as functions of the seven argument arrays. -/
theorem ref_eq : val_main_v16 (F := Ideal) x0 x1 x2 x3 x4 x5 x6 = Cert.Spec.G x0 x1 x2 x3 x4 x5 x6 := by
  funext o
  obtain ⟨p, q, rfl⟩ : ∃ (p : Fin 1024) (q : Fin 256), o = ix2 p q := ⟨o 0, o 1, eq_ix2 o⟩
  rw [v16_apply, Cert.Spec.G_apply]

end Cert.RefValue

end
-- ==== Proof.lean ====
import proofs.«109090_g35089882808761_cont_8to1_b_317_18_alg».proof.Defs
import proofs.«109090_g35089882808761_cont_8to1_b_317_18_alg».proof.Proof.Gen.Kernel
import proofs.«109090_g35089882808761_cont_8to1_b_317_18_alg».proof.Proof.Gen.KernelIdeal
import proofs.«109090_g35089882808761_cont_8to1_b_317_18_alg».proof.Proof.Gen.ReferenceIdeal
import proofs.«109090_g35089882808761_cont_8to1_b_317_18_alg».proof.Proof.Gen.Pre_finite_inputs
import proofs.«109090_g35089882808761_cont_8to1_b_317_18_alg».proof.Proof.Gen.ReferenceIdeal.Read
import proofs.«109090_g35089882808761_cont_8to1_b_317_18_alg».proof.Proof.Frames
import proofs.«109090_g35089882808761_cont_8to1_b_317_18_alg».proof.Proof.IdealFinal
import proofs.«109090_g35089882808761_cont_8to1_b_317_18_alg».proof.Proof.RefValue

/-!
  A three-layer perceptron, `relu(relu(x·W0ᵀ + b0)·W1ᵀ + b1)·W2ᵀ + b2` over `x : [1024, 16384]`, computed by two
  pipelined calls against the same formula written as three host matrix products.

  At the extended reals a change of float format is the identity, a matrix product into a zero accumulator is the
  plain sum of products, and the rectifier is `max · 0` on both sides. The one difference is layer 0: the reference
  sums its 16384 products at once, the kernel sums them in eight blocks of 2048, adding block after block into the
  columns of a resident output. Addition on the extended reals is commutative and associative, so the two sums agree
  with no finiteness assumption: the precondition is never opened.

  The kernel side: the first call's result is the accumulation's closed form (every column block summed through the
  last contraction block), which index by index is the full sum; the host operations hand the second call the small
  weights unchanged and the biases as rows; the second call's four row blocks cover the result, each block the
  tail's payload of its rows. The reference side: its run's term read operation by operation. Both are the function
  `Cert.Spec.G` of the seven arguments.
-/

noncomputable section

namespace Cert.Proof

open Idealize.ShloMosaic Idealize.SL.Sem

/-- From memories agreeing on the arguments both idealized programs end with the result array at `Cert.Spec.G` of the
    arguments: the kernel's by the run's closed form, the reference's by its run read index by index. -/
theorem algebraic : Cert.algebraic_KernelIdeal_ReferenceIdeal := by
  intro m ρ m' ρ' _ hagree
  refine ⟨fun c => (Cert.KernelIdeal.Hand.dat1 (F := Ideal) (Cert.KernelIdeal.Hand.V2 m ρ) c).arrAt 6 Cert.KernelIdeal.cfg1.N,
    Cert.KernelIdeal.Hand.run_val (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.RefValue.ref_eq, (hagree c).1, (hagree c).2.1, (hagree c).2.2.1,
    (hagree c).2.2.2.1, (hagree c).2.2.2.2.1, (hagree c).2.2.2.2.2.1, (hagree c).2.2.2.2.2.2]
  exact (Cert.KernelIdeal.Hand.final_value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
